-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x64x64x64 : Shape := ⟨5, ![2, 64, 64, 64, 64]⟩
abbrev S_ : Shape := ⟨0, ![]⟩

class Facts : Prop where
  bcast_S_S2x64x64x64x64 : S_.BroadcastsInDim S2x64x64x64x64 (![] : Fin 0 → Fin S2x64x64x64x64.rank)
  reducesTo_S2x64x64x64x64_S_d0_1_2_3_4 : S2x64x64x64x64.ReducesTo [0, 1, 2, 3, 4] S_
  h_S_ : 0 < S_.numel

variable [Facts]

def fn {F : FTy → Type} [FloatOps F] (main_arg0 : FVec F S2x64x64x64x64 .f32) (main_arg1 : FVec F S2x64x64x64x64 .f32) : IVec S_ 1 :=
  let main_v0 : FVec F S2x64x64x64x64 .f32 := Host.absf main_arg0
  let main_cst : FVec F S_ .f32 := constant S_ .f32 0x7F800000#32
  let main_v1 : FVec F S2x64x64x64x64 .f32 := broadcastInDim S2x64x64x64x64 ![] bcast_S_S2x64x64x64x64 main_cst
  let main_v2 : IVec S2x64x64x64x64 1 := cmpf .olt main_v0 main_v1
  let main_c : IVec S_ 1 := constantI S_ 1 1#1
  let main_v3 : IVec S_ 1 := (fun x v => Host.reduce IntOp.andi x v reducesTo_S2x64x64x64x64_S_d0_1_2_3_4 h_S_) main_v2 main_c
  let main_v4 : FVec F S2x64x64x64x64 .f32 := Host.absf main_arg1
  let main_cst_0 : FVec F S_ .f32 := constant S_ .f32 0x7F800000#32
  let main_v5 : FVec F S2x64x64x64x64 .f32 := broadcastInDim S2x64x64x64x64 ![] bcast_S_S2x64x64x64x64 main_cst_0
  let main_v6 : IVec S2x64x64x64x64 1 := cmpf .olt main_v4 main_v5
  let main_c_1 : IVec S_ 1 := constantI S_ 1 1#1
  let main_v7 : IVec S_ 1 := (fun x v => Host.reduce IntOp.andi x v reducesTo_S2x64x64x64x64_S_d0_1_2_3_4 h_S_) main_v6 main_c_1
  let main_v8 : IVec S_ 1 := andi main_v3 main_v7
  main_v8
-- ==== Kernel.lean ====
abbrev S2x64x64x64x64 : Shape := ⟨5, ![2, 64, 64, 64, 64]⟩
abbrev S_ : Shape := ⟨0, ![]⟩
abbrev S2x64x66x66x66 : Shape := ⟨5, ![2, 64, 66, 66, 66]⟩
abbrev S2x27x64x64x64 : Shape := ⟨5, ![2, 27, 64, 64, 64]⟩
abbrev S1x1x64x64x64 : Shape := ⟨5, ![1, 1, 64, 64, 64]⟩
abbrev S1x1x66x66x66 : Shape := ⟨5, ![1, 1, 66, 66, 66]⟩
abbrev S1x27x64x64x64 : Shape := ⟨5, ![1, 27, 64, 64, 64]⟩
abbrev S1x64x64x64 : Shape := ⟨4, ![1, 64, 64, 64]⟩

abbrev nBuf : Space → Nat
  | .hbm => 6
  | .vmem => 3
  | .smem => 0
  | _ => 0

abbrev bufTy : (tb : Table) → Fin (tcTables nBuf tb) → BufTy
  | .hbm, ⟨0, _⟩ => ⟨S2x64x64x64x64, .f32⟩
  | .hbm, ⟨1, _⟩ => ⟨S2x64x64x64x64, .f32⟩
  | .hbm, ⟨2, _⟩ => ⟨S_, .i32⟩
  | .hbm, ⟨3, _⟩ => ⟨S_, .f32⟩
  | .hbm, ⟨4, _⟩ => ⟨S2x64x66x66x66, .f32⟩
  | .hbm, ⟨5, _⟩ => ⟨S2x27x64x64x64, .f32⟩
  | .local _ .vmem, ⟨0, _⟩ => ⟨S1x1x64x64x64, .f32⟩
  | .local _ .vmem, ⟨1, _⟩ => ⟨S1x1x66x66x66, .f32⟩
  | .local _ .vmem, ⟨2, _⟩ => ⟨S1x27x64x64x64, .f32⟩
  | _, _ => ⟨S2x64x64x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![2, 64], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .vmem S1x1x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x66x66x66 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x27x64x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  pads_S2x64x64x64x64_S2x64x66x66x66_000_000_110_110_110 : S2x64x64x64x64.Pads (![0, 0, 1, 1, 1] : Fin 5 → Nat) ![0, 0, 1, 1, 1] ![0, 0, 0, 0, 0] S2x64x66x66x66
  h_S_ : 0 < S_.numel
  inb_S1x27x64x64x64_S1x27x64x64x64_0_0_0_0_0 : ∀ a, (![0, 0, 0, 0, 0] : Fin 5 → Nat) a + S1x27x64x64x64.size a ≤ S1x27x64x64x64.size a
  h_S1x27x64x64x64 : 0 < S1x27x64x64x64.numel
  inb_S1x1x64x64x64_S1x1x64x64x64_0_0_0_0_0 : ∀ a, (![0, 0, 0, 0, 0] : Fin 5 → Nat) a + S1x1x64x64x64.size a ≤ S1x1x64x64x64.size a
  h_S1x1x64x64x64 : 0 < S1x1x64x64x64.numel
  inb_S1x1x66x66x66_S1x1x64x64x64_0_0_0_0_0 : ∀ a, (![0, 0, 0, 0, 0] : Fin 5 → Nat) a + S1x1x64x64x64.size a ≤ S1x1x66x66x66.size a
  shapeCasts_S1x1x64x64x64_S1x1x64x64x64 : S1x1x64x64x64.ShapeCasts S1x1x64x64x64
  reduces_S1x1x64x64x64_S1x64x64x64 : S1x1x64x64x64.Reduces [1] S1x64x64x64
  shapeCasts_S1x64x64x64_S1x1x64x64x64 : S1x64x64x64.ShapeCasts S1x1x64x64x64
  inb_S1x27x64x64x64_S1x1x64x64x64_0_0_0_0_0 : ∀ a, (![0, 0, 0, 0, 0] : Fin 5 → Nat) a + S1x1x64x64x64.size a ≤ S1x27x64x64x64.size a
  inb_S1x1x66x66x66_S1x1x64x64x64_0_0_0_0_1 : ∀ a, (![0, 0, 0, 0, 1] : Fin 5 → Nat) a + S1x1x64x64x64.size a ≤ S1x1x66x66x66.size a
  inb_S1x27x64x64x64_S1x1x64x64x64_0_1_0_0_0 : ∀ a, (![0, 1, 0, 0, 0] : Fin 5 → Nat) a + S1x1x64x64x64.size a ≤ S1x27x64x64x64.size a
  inb_S1x1x66x66x66_S1x1x64x64x64_0_0_0_0_2 : ∀ a, (![0, 0, 0, 0, 2] : Fin 5 → Nat) a + S1x1x64x64x64.size a ≤ S1x1x66x66x66.size a
  inb_S1x27x64x64x64_S1x1x64x64x64_0_2_0_0_0 : ∀ a, (![0, 2, 0, 0, 0] : Fin 5 → Nat) a + S1x1x64x64x64.size a ≤ S1x27x64x64x64.size a
  inb_S1x1x66x66x66_S1x1x64x64x64_0_0_0_1_0 : ∀ a, (![0, 0, 0, 1, 0] : Fin 5 → Nat) a + S1x1x64x64x64.size a ≤ S1x1x66x66x66.size a
  inb_S1x27x64x64x64_S1x1x64x64x64_0_3_0_0_0 : ∀ a, (![0, 3, 0, 0, 0] : Fin 5 → Nat) a + S1x1x64x64x64.size a ≤ S1x27x64x64x64.size a
  inb_S1x1x66x66x66_S1x1x64x64x64_0_0_0_1_1 : ∀ a, (![0, 0, 0, 1, 1] : Fin 5 → Nat) a + S1x1x64x64x64.size a ≤ S1x1x66x66x66.size a
  inb_S1x27x64x64x64_S1x1x64x64x64_0_4_0_0_0 : ∀ a, (![0, 4, 0, 0, 0] : Fin 5 → Nat) a + S1x1x64x64x64.size a ≤ S1x27x64x64x64.size a
  inb_S1x1x66x66x66_S1x1x64x64x64_0_0_0_1_2 : ∀ a, (![0, 0, 0, 1, 2] : Fin 5 → Nat) a + S1x1x64x64x64.size a ≤ S1x1x66x66x66.size a
  inb_S1x27x64x64x64_S1x1x64x64x64_0_5_0_0_0 : ∀ a, (![0, 5, 0, 0, 0] : Fin 5 → Nat) a + S1x1x64x64x64.size a ≤ S1x27x64x64x64.size a
  inb_S1x1x66x66x66_S1x1x64x64x64_0_0_0_2_0 : ∀ a, (![0, 0, 0, 2, 0] : Fin 5 → Nat) a + S1x1x64x64x64.size a ≤ S1x1x66x66x66.size a
  inb_S1x27x64x64x64_S1x1x64x64x64_0_6_0_0_0 : ∀ a, (![0, 6, 0, 0, 0] : Fin 5 → Nat) a + S1x1x64x64x64.size a ≤ S1x27x64x64x64.size a
  inb_S1x1x66x66x66_S1x1x64x64x64_0_0_0_2_1 : ∀ a, (![0, 0, 0, 2, 1] : Fin 5 → Nat) a + S1x1x64x64x64.size a ≤ S1x1x66x66x66.size a
  inb_S1x27x64x64x64_S1x1x64x64x64_0_7_0_0_0 : ∀ a, (![0, 7, 0, 0, 0] : Fin 5 → Nat) a + S1x1x64x64x64.size a ≤ S1x27x64x64x64.size a
  inb_S1x1x66x66x66_S1x1x64x64x64_0_0_0_2_2 : ∀ a, (![0, 0, 0, 2, 2] : Fin 5 → Nat) a + S1x1x64x64x64.size a ≤ S1x1x66x66x66.size a
  inb_S1x27x64x64x64_S1x1x64x64x64_0_8_0_0_0 : ∀ a, (![0, 8, 0, 0, 0] : Fin 5 → Nat) a + S1x1x64x64x64.size a ≤ S1x27x64x64x64.size a
  inb_S1x1x66x66x66_S1x1x64x64x64_0_0_1_0_0 : ∀ a, (![0, 0, 1, 0, 0] : Fin 5 → Nat) a + S1x1x64x64x64.size a ≤ S1x1x66x66x66.size a
  inb_S1x27x64x64x64_S1x1x64x64x64_0_9_0_0_0 : ∀ a, (![0, 9, 0, 0, 0] : Fin 5 → Nat) a + S1x1x64x64x64.size a ≤ S1x27x64x64x64.size a
  inb_S1x1x66x66x66_S1x1x64x64x64_0_0_1_0_1 : ∀ a, (![0, 0, 1, 0, 1] : Fin 5 → Nat) a + S1x1x64x64x64.size a ≤ S1x1x66x66x66.size a
  inb_S1x27x64x64x64_S1x1x64x64x64_0_10_0_0_0 : ∀ a, (![0, 10, 0, 0, 0] : Fin 5 → Nat) a + S1x1x64x64x64.size a ≤ S1x27x64x64x64.size a
  inb_S1x1x66x66x66_S1x1x64x64x64_0_0_1_0_2 : ∀ a, (![0, 0, 1, 0, 2] : Fin 5 → Nat) a + S1x1x64x64x64.size a ≤ S1x1x66x66x66.size a
  inb_S1x27x64x64x64_S1x1x64x64x64_0_11_0_0_0 : ∀ a, (![0, 11, 0, 0, 0] : Fin 5 → Nat) a + S1x1x64x64x64.size a ≤ S1x27x64x64x64.size a
  inb_S1x1x66x66x66_S1x1x64x64x64_0_0_1_1_0 : ∀ a, (![0, 0, 1, 1, 0] : Fin 5 → Nat) a + S1x1x64x64x64.size a ≤ S1x1x66x66x66.size a
  inb_S1x27x64x64x64_S1x1x64x64x64_0_12_0_0_0 : ∀ a, (![0, 12, 0, 0, 0] : Fin 5 → Nat) a + S1x1x64x64x64.size a ≤ S1x27x64x64x64.size a
  inb_S1x1x66x66x66_S1x1x64x64x64_0_0_1_1_1 : ∀ a, (![0, 0, 1, 1, 1] : Fin 5 → Nat) a + S1x1x64x64x64.size a ≤ S1x1x66x66x66.size a
  inb_S1x27x64x64x64_S1x1x64x64x64_0_13_0_0_0 : ∀ a, (![0, 13, 0, 0, 0] : Fin 5 → Nat) a + S1x1x64x64x64.size a ≤ S1x27x64x64x64.size a
  inb_S1x1x66x66x66_S1x1x64x64x64_0_0_1_1_2 : ∀ a, (![0, 0, 1, 1, 2] : Fin 5 → Nat) a + S1x1x64x64x64.size a ≤ S1x1x66x66x66.size a
  inb_S1x27x64x64x64_S1x1x64x64x64_0_14_0_0_0 : ∀ a, (![0, 14, 0, 0, 0] : Fin 5 → Nat) a + S1x1x64x64x64.size a ≤ S1x27x64x64x64.size a
  inb_S1x1x66x66x66_S1x1x64x64x64_0_0_1_2_0 : ∀ a, (![0, 0, 1, 2, 0] : Fin 5 → Nat) a + S1x1x64x64x64.size a ≤ S1x1x66x66x66.size a
  inb_S1x27x64x64x64_S1x1x64x64x64_0_15_0_0_0 : ∀ a, (![0, 15, 0, 0, 0] : Fin 5 → Nat) a + S1x1x64x64x64.size a ≤ S1x27x64x64x64.size a
  inb_S1x1x66x66x66_S1x1x64x64x64_0_0_1_2_1 : ∀ a, (![0, 0, 1, 2, 1] : Fin 5 → Nat) a + S1x1x64x64x64.size a ≤ S1x1x66x66x66.size a
  inb_S1x27x64x64x64_S1x1x64x64x64_0_16_0_0_0 : ∀ a, (![0, 16, 0, 0, 0] : Fin 5 → Nat) a + S1x1x64x64x64.size a ≤ S1x27x64x64x64.size a
  inb_S1x1x66x66x66_S1x1x64x64x64_0_0_1_2_2 : ∀ a, (![0, 0, 1, 2, 2] : Fin 5 → Nat) a + S1x1x64x64x64.size a ≤ S1x1x66x66x66.size a
  inb_S1x27x64x64x64_S1x1x64x64x64_0_17_0_0_0 : ∀ a, (![0, 17, 0, 0, 0] : Fin 5 → Nat) a + S1x1x64x64x64.size a ≤ S1x27x64x64x64.size a
  inb_S1x1x66x66x66_S1x1x64x64x64_0_0_2_0_0 : ∀ a, (![0, 0, 2, 0, 0] : Fin 5 → Nat) a + S1x1x64x64x64.size a ≤ S1x1x66x66x66.size a
  inb_S1x27x64x64x64_S1x1x64x64x64_0_18_0_0_0 : ∀ a, (![0, 18, 0, 0, 0] : Fin 5 → Nat) a + S1x1x64x64x64.size a ≤ S1x27x64x64x64.size a
  inb_S1x1x66x66x66_S1x1x64x64x64_0_0_2_0_1 : ∀ a, (![0, 0, 2, 0, 1] : Fin 5 → Nat) a + S1x1x64x64x64.size a ≤ S1x1x66x66x66.size a
  inb_S1x27x64x64x64_S1x1x64x64x64_0_19_0_0_0 : ∀ a, (![0, 19, 0, 0, 0] : Fin 5 → Nat) a + S1x1x64x64x64.size a ≤ S1x27x64x64x64.size a
  inb_S1x1x66x66x66_S1x1x64x64x64_0_0_2_0_2 : ∀ a, (![0, 0, 2, 0, 2] : Fin 5 → Nat) a + S1x1x64x64x64.size a ≤ S1x1x66x66x66.size a
  inb_S1x27x64x64x64_S1x1x64x64x64_0_20_0_0_0 : ∀ a, (![0, 20, 0, 0, 0] : Fin 5 → Nat) a + S1x1x64x64x64.size a ≤ S1x27x64x64x64.size a
  inb_S1x1x66x66x66_S1x1x64x64x64_0_0_2_1_0 : ∀ a, (![0, 0, 2, 1, 0] : Fin 5 → Nat) a + S1x1x64x64x64.size a ≤ S1x1x66x66x66.size a
  inb_S1x27x64x64x64_S1x1x64x64x64_0_21_0_0_0 : ∀ a, (![0, 21, 0, 0, 0] : Fin 5 → Nat) a + S1x1x64x64x64.size a ≤ S1x27x64x64x64.size a
  inb_S1x1x66x66x66_S1x1x64x64x64_0_0_2_1_1 : ∀ a, (![0, 0, 2, 1, 1] : Fin 5 → Nat) a + S1x1x64x64x64.size a ≤ S1x1x66x66x66.size a
  inb_S1x27x64x64x64_S1x1x64x64x64_0_22_0_0_0 : ∀ a, (![0, 22, 0, 0, 0] : Fin 5 → Nat) a + S1x1x64x64x64.size a ≤ S1x27x64x64x64.size a
  inb_S1x1x66x66x66_S1x1x64x64x64_0_0_2_1_2 : ∀ a, (![0, 0, 2, 1, 2] : Fin 5 → Nat) a + S1x1x64x64x64.size a ≤ S1x1x66x66x66.size a
  inb_S1x27x64x64x64_S1x1x64x64x64_0_23_0_0_0 : ∀ a, (![0, 23, 0, 0, 0] : Fin 5 → Nat) a + S1x1x64x64x64.size a ≤ S1x27x64x64x64.size a
  inb_S1x1x66x66x66_S1x1x64x64x64_0_0_2_2_0 : ∀ a, (![0, 0, 2, 2, 0] : Fin 5 → Nat) a + S1x1x64x64x64.size a ≤ S1x1x66x66x66.size a
  inb_S1x27x64x64x64_S1x1x64x64x64_0_24_0_0_0 : ∀ a, (![0, 24, 0, 0, 0] : Fin 5 → Nat) a + S1x1x64x64x64.size a ≤ S1x27x64x64x64.size a
  inb_S1x1x66x66x66_S1x1x64x64x64_0_0_2_2_1 : ∀ a, (![0, 0, 2, 2, 1] : Fin 5 → Nat) a + S1x1x64x64x64.size a ≤ S1x1x66x66x66.size a
  inb_S1x27x64x64x64_S1x1x64x64x64_0_25_0_0_0 : ∀ a, (![0, 25, 0, 0, 0] : Fin 5 → Nat) a + S1x1x64x64x64.size a ≤ S1x27x64x64x64.size a
  inb_S1x1x66x66x66_S1x1x64x64x64_0_0_2_2_2 : ∀ a, (![0, 0, 2, 2, 2] : Fin 5 → Nat) a + S1x1x64x64x64.size a ≤ S1x1x66x66x66.size a
  inb_S1x27x64x64x64_S1x1x64x64x64_0_26_0_0_0 : ∀ a, (![0, 26, 0, 0, 0] : Fin 5 → Nat) a + S1x1x64x64x64.size a ≤ S1x27x64x64x64.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1x64x64x64.size a ≤ S2x64x64x64x64.size a
  hwx0_0 : ∀ i : grid0.Coords, EltTy.bits .f32 = 32 ∨ (Rect.block (s := S2x64x64x64x64) S1x1x64x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x66x66x66.size a ≤ S2x64x66x66x66.size a
  hwx0_1 : ∀ i : grid0.Coords, EltTy.bits .f32 = 32 ∨ (Rect.block (s := S2x64x66x66x66) S1x1x66x66x66.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x27x64x64x64.size a ≤ S2x27x64x64x64.size a
  hwx0_2 : ∀ i : grid0.Coords, EltTy.bits .f32 = 32 ∨ (Rect.block (s := S2x27x64x64x64) S1x27x64x64x64.size (cc0_transform_2 i) (hinb0_2 i)).WholeWords (EltTy.packing .f32)

variable [Facts₀]

abbrev win0_0 : Pipeline.Window sig grid0 :=
  Pipeline.Window.ofSpec (Memref.whole main_arg0) S1x1x64x64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x66x66x66.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x27x64x64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x64x64x64x64 : Shape := ⟨5, ![2, 64, 64, 64, 64]⟩
abbrev S_ : Shape := ⟨0, ![]⟩
abbrev S2x64x66x66x66 : Shape := ⟨5, ![2, 64, 66, 66, 66]⟩
abbrev S2x64x64x64 : Shape := ⟨4, ![2, 64, 64, 64]⟩
abbrev S2x1x64x64x64 : Shape := ⟨5, ![2, 1, 64, 64, 64]⟩
abbrev S2x16x64x64x64 : Shape := ⟨5, ![2, 16, 64, 64, 64]⟩
abbrev S2x11x64x64x64 : Shape := ⟨5, ![2, 11, 64, 64, 64]⟩
abbrev S2x27x64x64x64 : Shape := ⟨5, ![2, 27, 64, 64, 64]⟩

abbrev nBuf : Space → Nat
  | .hbm => 224
  | .vmem => 0
  | .smem => 0
  | _ => 0

abbrev hbmTy0_0 (i : Nat) : BufTy := match i % 128 with
  | 0 => ⟨S2x64x64x64x64, .f32⟩
  | 1 => ⟨S2x64x64x64x64, .f32⟩
  | 2 => ⟨S_, .i32⟩
  | 3 => ⟨S_, .f32⟩
  | 4 => ⟨S2x64x66x66x66, .f32⟩
  | 5 => ⟨S2x64x64x64x64, .f32⟩
  | 6 => ⟨S2x64x64x64x64, .f32⟩
  | 7 => ⟨S_, .f32⟩
  | 8 => ⟨S2x64x64x64, .f32⟩
  | 9 => ⟨S2x1x64x64x64, .f32⟩
  | 10 => ⟨S_, .f32⟩
  | 11 => ⟨S2x1x64x64x64, .f32⟩
  | 12 => ⟨S2x1x64x64x64, .f32⟩
  | 13 => ⟨S2x64x64x64x64, .f32⟩
  | 14 => ⟨S2x64x64x64x64, .f32⟩
  | 15 => ⟨S_, .f32⟩
  | 16 => ⟨S2x64x64x64, .f32⟩
  | 17 => ⟨S2x1x64x64x64, .f32⟩
  | 18 => ⟨S_, .f32⟩
  | 19 => ⟨S2x1x64x64x64, .f32⟩
  | 20 => ⟨S2x1x64x64x64, .f32⟩
  | 21 => ⟨S2x64x64x64x64, .f32⟩
  | 22 => ⟨S2x64x64x64x64, .f32⟩
  | 23 => ⟨S_, .f32⟩
  | 24 => ⟨S2x64x64x64, .f32⟩
  | 25 => ⟨S2x1x64x64x64, .f32⟩
  | 26 => ⟨S_, .f32⟩
  | 27 => ⟨S2x1x64x64x64, .f32⟩
  | 28 => ⟨S2x1x64x64x64, .f32⟩
  | 29 => ⟨S2x64x64x64x64, .f32⟩
  | 30 => ⟨S2x64x64x64x64, .f32⟩
  | 31 => ⟨S_, .f32⟩
  | 32 => ⟨S2x64x64x64, .f32⟩
  | 33 => ⟨S2x1x64x64x64, .f32⟩
  | 34 => ⟨S_, .f32⟩
  | 35 => ⟨S2x1x64x64x64, .f32⟩
  | 36 => ⟨S2x1x64x64x64, .f32⟩
  | 37 => ⟨S2x64x64x64x64, .f32⟩
  | 38 => ⟨S2x64x64x64x64, .f32⟩
  | 39 => ⟨S_, .f32⟩
  | 40 => ⟨S2x64x64x64, .f32⟩
  | 41 => ⟨S2x1x64x64x64, .f32⟩
  | 42 => ⟨S_, .f32⟩
  | 43 => ⟨S2x1x64x64x64, .f32⟩
  | 44 => ⟨S2x1x64x64x64, .f32⟩
  | 45 => ⟨S2x64x64x64x64, .f32⟩
  | 46 => ⟨S2x64x64x64x64, .f32⟩
  | 47 => ⟨S_, .f32⟩
  | 48 => ⟨S2x64x64x64, .f32⟩
  | 49 => ⟨S2x1x64x64x64, .f32⟩
  | 50 => ⟨S_, .f32⟩
  | 51 => ⟨S2x1x64x64x64, .f32⟩
  | 52 => ⟨S2x1x64x64x64, .f32⟩
  | 53 => ⟨S2x64x64x64x64, .f32⟩
  | 54 => ⟨S2x64x64x64x64, .f32⟩
  | 55 => ⟨S_, .f32⟩
  | 56 => ⟨S2x64x64x64, .f32⟩
  | 57 => ⟨S2x1x64x64x64, .f32⟩
  | 58 => ⟨S_, .f32⟩
  | 59 => ⟨S2x1x64x64x64, .f32⟩
  | 60 => ⟨S2x1x64x64x64, .f32⟩
  | 61 => ⟨S2x64x64x64x64, .f32⟩
  | 62 => ⟨S2x64x64x64x64, .f32⟩
  | 63 => ⟨S_, .f32⟩
  | 64 => ⟨S2x64x64x64, .f32⟩
  | 65 => ⟨S2x1x64x64x64, .f32⟩
  | 66 => ⟨S_, .f32⟩
  | 67 => ⟨S2x1x64x64x64, .f32⟩
  | 68 => ⟨S2x1x64x64x64, .f32⟩
  | 69 => ⟨S2x64x64x64x64, .f32⟩
  | 70 => ⟨S2x64x64x64x64, .f32⟩
  | 71 => ⟨S_, .f32⟩
  | 72 => ⟨S2x64x64x64, .f32⟩
  | 73 => ⟨S2x1x64x64x64, .f32⟩
  | 74 => ⟨S_, .f32⟩
  | 75 => ⟨S2x1x64x64x64, .f32⟩
  | 76 => ⟨S2x1x64x64x64, .f32⟩
  | 77 => ⟨S2x64x64x64x64, .f32⟩
  | 78 => ⟨S2x64x64x64x64, .f32⟩
  | 79 => ⟨S_, .f32⟩
  | 80 => ⟨S2x64x64x64, .f32⟩
  | 81 => ⟨S2x1x64x64x64, .f32⟩
  | 82 => ⟨S_, .f32⟩
  | 83 => ⟨S2x1x64x64x64, .f32⟩
  | 84 => ⟨S2x1x64x64x64, .f32⟩
  | 85 => ⟨S2x64x64x64x64, .f32⟩
  | 86 => ⟨S2x64x64x64x64, .f32⟩
  | 87 => ⟨S_, .f32⟩
  | 88 => ⟨S2x64x64x64, .f32⟩
  | 89 => ⟨S2x1x64x64x64, .f32⟩
  | 90 => ⟨S_, .f32⟩
  | 91 => ⟨S2x1x64x64x64, .f32⟩
  | 92 => ⟨S2x1x64x64x64, .f32⟩
  | 93 => ⟨S2x64x64x64x64, .f32⟩
  | 94 => ⟨S2x64x64x64x64, .f32⟩
  | 95 => ⟨S_, .f32⟩
  | 96 => ⟨S2x64x64x64, .f32⟩
  | 97 => ⟨S2x1x64x64x64, .f32⟩
  | 98 => ⟨S_, .f32⟩
  | 99 => ⟨S2x1x64x64x64, .f32⟩
  | 100 => ⟨S2x1x64x64x64, .f32⟩
  | 101 => ⟨S2x64x64x64x64, .f32⟩
  | 102 => ⟨S2x64x64x64x64, .f32⟩
  | 103 => ⟨S_, .f32⟩
  | 104 => ⟨S2x64x64x64, .f32⟩
  | 105 => ⟨S2x1x64x64x64, .f32⟩
  | 106 => ⟨S_, .f32⟩
  | 107 => ⟨S2x1x64x64x64, .f32⟩
  | 108 => ⟨S2x1x64x64x64, .f32⟩
  | 109 => ⟨S2x64x64x64x64, .f32⟩
  | 110 => ⟨S2x64x64x64x64, .f32⟩
  | 111 => ⟨S_, .f32⟩
  | 112 => ⟨S2x64x64x64, .f32⟩
  | 113 => ⟨S2x1x64x64x64, .f32⟩
  | 114 => ⟨S_, .f32⟩
  | 115 => ⟨S2x1x64x64x64, .f32⟩
  | 116 => ⟨S2x1x64x64x64, .f32⟩
  | 117 => ⟨S2x64x64x64x64, .f32⟩
  | 118 => ⟨S2x64x64x64x64, .f32⟩
  | 119 => ⟨S_, .f32⟩
  | 120 => ⟨S2x64x64x64, .f32⟩
  | 121 => ⟨S2x1x64x64x64, .f32⟩
  | 122 => ⟨S_, .f32⟩
  | 123 => ⟨S2x1x64x64x64, .f32⟩
  | 124 => ⟨S2x1x64x64x64, .f32⟩
  | 125 => ⟨S2x64x64x64x64, .f32⟩
  | 126 => ⟨S2x64x64x64x64, .f32⟩
  | 127 => ⟨S_, .f32⟩
  | _ => ⟨S2x64x64x64x64, .f32⟩

abbrev hbmTy0_1 (i : Nat) : BufTy := match i % 128 with
  | 0 => ⟨S2x64x64x64, .f32⟩
  | 1 => ⟨S2x1x64x64x64, .f32⟩
  | 2 => ⟨S_, .f32⟩
  | 3 => ⟨S2x1x64x64x64, .f32⟩
  | 4 => ⟨S2x1x64x64x64, .f32⟩
  | 5 => ⟨S2x64x64x64x64, .f32⟩
  | 6 => ⟨S2x64x64x64x64, .f32⟩
  | 7 => ⟨S_, .f32⟩
  | 8 => ⟨S2x64x64x64, .f32⟩
  | 9 => ⟨S2x1x64x64x64, .f32⟩
  | 10 => ⟨S_, .f32⟩
  | 11 => ⟨S2x1x64x64x64, .f32⟩
  | 12 => ⟨S2x1x64x64x64, .f32⟩
  | 13 => ⟨S2x64x64x64x64, .f32⟩
  | 14 => ⟨S2x64x64x64x64, .f32⟩
  | 15 => ⟨S_, .f32⟩
  | 16 => ⟨S2x64x64x64, .f32⟩
  | 17 => ⟨S2x1x64x64x64, .f32⟩
  | 18 => ⟨S_, .f32⟩
  | 19 => ⟨S2x1x64x64x64, .f32⟩
  | 20 => ⟨S2x1x64x64x64, .f32⟩
  | 21 => ⟨S2x64x64x64x64, .f32⟩
  | 22 => ⟨S2x64x64x64x64, .f32⟩
  | 23 => ⟨S_, .f32⟩
  | 24 => ⟨S2x64x64x64, .f32⟩
  | 25 => ⟨S2x1x64x64x64, .f32⟩
  | 26 => ⟨S_, .f32⟩
  | 27 => ⟨S2x1x64x64x64, .f32⟩
  | 28 => ⟨S2x1x64x64x64, .f32⟩
  | 29 => ⟨S2x64x64x64x64, .f32⟩
  | 30 => ⟨S2x64x64x64x64, .f32⟩
  | 31 => ⟨S_, .f32⟩
  | 32 => ⟨S2x64x64x64, .f32⟩
  | 33 => ⟨S2x1x64x64x64, .f32⟩
  | 34 => ⟨S_, .f32⟩
  | 35 => ⟨S2x1x64x64x64, .f32⟩
  | 36 => ⟨S2x1x64x64x64, .f32⟩
  | 37 => ⟨S2x64x64x64x64, .f32⟩
  | 38 => ⟨S2x64x64x64x64, .f32⟩
  | 39 => ⟨S_, .f32⟩
  | 40 => ⟨S2x64x64x64, .f32⟩
  | 41 => ⟨S2x1x64x64x64, .f32⟩
  | 42 => ⟨S_, .f32⟩
  | 43 => ⟨S2x1x64x64x64, .f32⟩
  | 44 => ⟨S2x1x64x64x64, .f32⟩
  | 45 => ⟨S2x64x64x64x64, .f32⟩
  | 46 => ⟨S2x64x64x64x64, .f32⟩
  | 47 => ⟨S_, .f32⟩
  | 48 => ⟨S2x64x64x64, .f32⟩
  | 49 => ⟨S2x1x64x64x64, .f32⟩
  | 50 => ⟨S_, .f32⟩
  | 51 => ⟨S2x1x64x64x64, .f32⟩
  | 52 => ⟨S2x1x64x64x64, .f32⟩
  | 53 => ⟨S2x64x64x64x64, .f32⟩
  | 54 => ⟨S2x64x64x64x64, .f32⟩
  | 55 => ⟨S_, .f32⟩
  | 56 => ⟨S2x64x64x64, .f32⟩
  | 57 => ⟨S2x1x64x64x64, .f32⟩
  | 58 => ⟨S_, .f32⟩
  | 59 => ⟨S2x1x64x64x64, .f32⟩
  | 60 => ⟨S2x1x64x64x64, .f32⟩
  | 61 => ⟨S2x64x64x64x64, .f32⟩
  | 62 => ⟨S2x64x64x64x64, .f32⟩
  | 63 => ⟨S_, .f32⟩
  | 64 => ⟨S2x64x64x64, .f32⟩
  | 65 => ⟨S2x1x64x64x64, .f32⟩
  | 66 => ⟨S_, .f32⟩
  | 67 => ⟨S2x1x64x64x64, .f32⟩
  | 68 => ⟨S2x1x64x64x64, .f32⟩
  | 69 => ⟨S2x64x64x64x64, .f32⟩
  | 70 => ⟨S2x64x64x64x64, .f32⟩
  | 71 => ⟨S_, .f32⟩
  | 72 => ⟨S2x64x64x64, .f32⟩
  | 73 => ⟨S2x1x64x64x64, .f32⟩
  | 74 => ⟨S_, .f32⟩
  | 75 => ⟨S2x1x64x64x64, .f32⟩
  | 76 => ⟨S2x1x64x64x64, .f32⟩
  | 77 => ⟨S2x64x64x64x64, .f32⟩
  | 78 => ⟨S2x64x64x64x64, .f32⟩
  | 79 => ⟨S_, .f32⟩
  | 80 => ⟨S2x64x64x64, .f32⟩
  | 81 => ⟨S2x1x64x64x64, .f32⟩
  | 82 => ⟨S_, .f32⟩
  | 83 => ⟨S2x1x64x64x64, .f32⟩
  | 84 => ⟨S2x1x64x64x64, .f32⟩
  | 85 => ⟨S2x64x64x64x64, .f32⟩
  | 86 => ⟨S2x64x64x64x64, .f32⟩
  | 87 => ⟨S_, .f32⟩
  | 88 => ⟨S2x64x64x64, .f32⟩
  | 89 => ⟨S2x1x64x64x64, .f32⟩
  | 90 => ⟨S_, .f32⟩
  | 91 => ⟨S2x1x64x64x64, .f32⟩
  | 92 => ⟨S2x1x64x64x64, .f32⟩
  | 93 => ⟨S2x16x64x64x64, .f32⟩
  | 94 => ⟨S2x11x64x64x64, .f32⟩
  | 95 => ⟨S2x27x64x64x64, .f32⟩
  | _ => ⟨S2x64x64x64x64, .f32⟩

abbrev hbmTy (i : Nat) : BufTy := match i / 128 with
  | 0 => hbmTy0_0 i
  | 1 => hbmTy0_1 i
  | _ => ⟨S2x64x64x64x64, .f32⟩

abbrev bufTy : (tb : Table) → Fin (tcTables nBuf tb) → BufTy
  | .hbm, ⟨i, _⟩ => hbmTy i
  | _, _ => ⟨S2x64x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_v46 : Ref sig .tc := ⟨.hbm, 65, rfl⟩
abbrev main_cst_14 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_15 : Ref sig .tc := ⟨.hbm, 71, rfl⟩
abbrev main_v51 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_19 : Ref sig .tc := ⟨.hbm, 87, rfl⟩
abbrev main_v63 : Ref sig .tc := ⟨.hbm, 88, rfl⟩
abbrev main_v64 : Ref sig .tc := ⟨.hbm, 89, rfl⟩
abbrev main_cst_20 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_21 : Ref sig .tc := ⟨.hbm, 95, rfl⟩
abbrev main_v69 : Ref sig .tc := ⟨.hbm, 96, rfl⟩
abbrev main_v70 : Ref sig .tc := ⟨.hbm, 97, rfl⟩
abbrev main_cst_22 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_23 : Ref sig .tc := ⟨.hbm, 103, rfl⟩
abbrev main_v75 : Ref sig .tc := ⟨.hbm, 104, rfl⟩
abbrev main_v76 : Ref sig .tc := ⟨.hbm, 105, rfl⟩
abbrev main_cst_24 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_25 : Ref sig .tc := ⟨.hbm, 111, rfl⟩
abbrev main_v81 : Ref sig .tc := ⟨.hbm, 112, rfl⟩
abbrev main_v82 : Ref sig .tc := ⟨.hbm, 113, rfl⟩
abbrev main_cst_26 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_27 : Ref sig .tc := ⟨.hbm, 119, rfl⟩
abbrev main_v87 : Ref sig .tc := ⟨.hbm, 120, rfl⟩
abbrev main_v88 : Ref sig .tc := ⟨.hbm, 121, rfl⟩
abbrev main_cst_28 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_29 : Ref sig .tc := ⟨.hbm, 127, rfl⟩
abbrev main_v93 : Ref sig .tc := ⟨.hbm, 128, rfl⟩
abbrev main_v94 : Ref sig .tc := ⟨.hbm, 129, rfl⟩
abbrev main_cst_30 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_31 : Ref sig .tc := ⟨.hbm, 135, rfl⟩
abbrev main_v99 : Ref sig .tc := ⟨.hbm, 136, rfl⟩
abbrev main_v100 : Ref sig .tc := ⟨.hbm, 137, rfl⟩
abbrev main_cst_32 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_33 : Ref sig .tc := ⟨.hbm, 143, rfl⟩
abbrev main_v105 : Ref sig .tc := ⟨.hbm, 144, rfl⟩
abbrev main_v106 : Ref sig .tc := ⟨.hbm, 145, rfl⟩
abbrev main_cst_34 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_35 : Ref sig .tc := ⟨.hbm, 151, rfl⟩
abbrev main_v111 : Ref sig .tc := ⟨.hbm, 152, rfl⟩
abbrev main_v112 : Ref sig .tc := ⟨.hbm, 153, rfl⟩
abbrev main_cst_36 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_37 : Ref sig .tc := ⟨.hbm, 159, rfl⟩
abbrev main_v117 : Ref sig .tc := ⟨.hbm, 160, rfl⟩
abbrev main_v118 : Ref sig .tc := ⟨.hbm, 161, rfl⟩
abbrev main_cst_38 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_39 : Ref sig .tc := ⟨.hbm, 167, rfl⟩
abbrev main_v123 : Ref sig .tc := ⟨.hbm, 168, rfl⟩
abbrev main_v124 : Ref sig .tc := ⟨.hbm, 169, rfl⟩
abbrev main_cst_40 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_41 : Ref sig .tc := ⟨.hbm, 175, rfl⟩
abbrev main_v129 : Ref sig .tc := ⟨.hbm, 176, rfl⟩
abbrev main_v130 : Ref sig .tc := ⟨.hbm, 177, rfl⟩
abbrev main_cst_42 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_43 : Ref sig .tc := ⟨.hbm, 183, rfl⟩
abbrev main_v135 : Ref sig .tc := ⟨.hbm, 184, rfl⟩
abbrev main_v136 : Ref sig .tc := ⟨.hbm, 185, rfl⟩
abbrev main_cst_44 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_45 : Ref sig .tc := ⟨.hbm, 191, rfl⟩
abbrev main_v141 : Ref sig .tc := ⟨.hbm, 192, rfl⟩
abbrev main_v142 : Ref sig .tc := ⟨.hbm, 193, rfl⟩
abbrev main_cst_46 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_47 : Ref sig .tc := ⟨.hbm, 199, rfl⟩
abbrev main_v147 : Ref sig .tc := ⟨.hbm, 200, rfl⟩
abbrev main_v148 : Ref sig .tc := ⟨.hbm, 201, rfl⟩
abbrev main_cst_48 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_49 : Ref sig .tc := ⟨.hbm, 207, rfl⟩
abbrev main_v153 : Ref sig .tc := ⟨.hbm, 208, rfl⟩
abbrev main_v154 : Ref sig .tc := ⟨.hbm, 209, rfl⟩
abbrev main_cst_50 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_51 : Ref sig .tc := ⟨.hbm, 215, rfl⟩
abbrev main_v159 : Ref sig .tc := ⟨.hbm, 216, rfl⟩
abbrev main_v160 : Ref sig .tc := ⟨.hbm, 217, rfl⟩
abbrev main_cst_52 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩

abbrev nD : Nat := 1
abbrev τ : Topo := Topo.v7x

variable {F : FTy → Type} [FloatOps F]

class Facts₀ : Prop where
  pads_S2x64x64x64x64_S2x64x66x66x66_000_000_110_110_110 : S2x64x64x64x64.Pads (![0, 0, 1, 1, 1] : Fin 5 → Nat) ![0, 0, 1, 1, 1] ![0, 0, 0, 0, 0] S2x64x66x66x66
  h_S_ : 0 < S_.numel
  slices_S2x64x66x66x66_S2x64x64x64x64_0_0_0_0_0 : S2x64x66x66x66.Slices ![0, 0, 0, 0, 0] S2x64x64x64x64
  reducesTo_S2x64x64x64x64_S2x64x64x64_d1 : S2x64x64x64x64.ReducesTo [1] S2x64x64x64
  bcast_S2x64x64x64_S2x1x64x64x64_0_2_3_4 : S2x64x64x64.BroadcastsInDim S2x1x64x64x64 (![0, 2, 3, 4] : Fin 4 → Fin S2x1x64x64x64.rank)
  bcast_S_S2x1x64x64x64 : S_.BroadcastsInDim S2x1x64x64x64 (![] : Fin 0 → Fin S2x1x64x64x64.rank)
  slices_S2x64x66x66x66_S2x64x64x64x64_0_0_0_0_1 : S2x64x66x66x66.Slices ![0, 0, 0, 0, 1] S2x64x64x64x64
  slices_S2x64x66x66x66_S2x64x64x64x64_0_0_0_0_2 : S2x64x66x66x66.Slices ![0, 0, 0, 0, 2] S2x64x64x64x64
  slices_S2x64x66x66x66_S2x64x64x64x64_0_0_0_1_0 : S2x64x66x66x66.Slices ![0, 0, 0, 1, 0] S2x64x64x64x64
  slices_S2x64x66x66x66_S2x64x64x64x64_0_0_0_1_1 : S2x64x66x66x66.Slices ![0, 0, 0, 1, 1] S2x64x64x64x64
  slices_S2x64x66x66x66_S2x64x64x64x64_0_0_0_1_2 : S2x64x66x66x66.Slices ![0, 0, 0, 1, 2] S2x64x64x64x64
  slices_S2x64x66x66x66_S2x64x64x64x64_0_0_0_2_0 : S2x64x66x66x66.Slices ![0, 0, 0, 2, 0] S2x64x64x64x64
  slices_S2x64x66x66x66_S2x64x64x64x64_0_0_0_2_1 : S2x64x66x66x66.Slices ![0, 0, 0, 2, 1] S2x64x64x64x64
  slices_S2x64x66x66x66_S2x64x64x64x64_0_0_0_2_2 : S2x64x66x66x66.Slices ![0, 0, 0, 2, 2] S2x64x64x64x64
  slices_S2x64x66x66x66_S2x64x64x64x64_0_0_1_0_0 : S2x64x66x66x66.Slices ![0, 0, 1, 0, 0] S2x64x64x64x64
  slices_S2x64x66x66x66_S2x64x64x64x64_0_0_1_0_1 : S2x64x66x66x66.Slices ![0, 0, 1, 0, 1] S2x64x64x64x64
  slices_S2x64x66x66x66_S2x64x64x64x64_0_0_1_0_2 : S2x64x66x66x66.Slices ![0, 0, 1, 0, 2] S2x64x64x64x64
  slices_S2x64x66x66x66_S2x64x64x64x64_0_0_1_1_0 : S2x64x66x66x66.Slices ![0, 0, 1, 1, 0] S2x64x64x64x64
  slices_S2x64x66x66x66_S2x64x64x64x64_0_0_1_1_1 : S2x64x66x66x66.Slices ![0, 0, 1, 1, 1] S2x64x64x64x64
  slices_S2x64x66x66x66_S2x64x64x64x64_0_0_1_1_2 : S2x64x66x66x66.Slices ![0, 0, 1, 1, 2] S2x64x64x64x64
  slices_S2x64x66x66x66_S2x64x64x64x64_0_0_1_2_0 : S2x64x66x66x66.Slices ![0, 0, 1, 2, 0] S2x64x64x64x64
  slices_S2x64x66x66x66_S2x64x64x64x64_0_0_1_2_1 : S2x64x66x66x66.Slices ![0, 0, 1, 2, 1] S2x64x64x64x64
  slices_S2x64x66x66x66_S2x64x64x64x64_0_0_1_2_2 : S2x64x66x66x66.Slices ![0, 0, 1, 2, 2] S2x64x64x64x64
  slices_S2x64x66x66x66_S2x64x64x64x64_0_0_2_0_0 : S2x64x66x66x66.Slices ![0, 0, 2, 0, 0] S2x64x64x64x64
  slices_S2x64x66x66x66_S2x64x64x64x64_0_0_2_0_1 : S2x64x66x66x66.Slices ![0, 0, 2, 0, 1] S2x64x64x64x64
  slices_S2x64x66x66x66_S2x64x64x64x64_0_0_2_0_2 : S2x64x66x66x66.Slices ![0, 0, 2, 0, 2] S2x64x64x64x64
  slices_S2x64x66x66x66_S2x64x64x64x64_0_0_2_1_0 : S2x64x66x66x66.Slices ![0, 0, 2, 1, 0] S2x64x64x64x64
  slices_S2x64x66x66x66_S2x64x64x64x64_0_0_2_1_1 : S2x64x66x66x66.Slices ![0, 0, 2, 1, 1] S2x64x64x64x64
  slices_S2x64x66x66x66_S2x64x64x64x64_0_0_2_1_2 : S2x64x66x66x66.Slices ![0, 0, 2, 1, 2] S2x64x64x64x64
  slices_S2x64x66x66x66_S2x64x64x64x64_0_0_2_2_0 : S2x64x66x66x66.Slices ![0, 0, 2, 2, 0] S2x64x64x64x64
  slices_S2x64x66x66x66_S2x64x64x64x64_0_0_2_2_1 : S2x64x66x66x66.Slices ![0, 0, 2, 2, 1] S2x64x64x64x64
  slices_S2x64x66x66x66_S2x64x64x64x64_0_0_2_2_2 : S2x64x66x66x66.Slices ![0, 0, 2, 2, 2] S2x64x64x64x64
  concatenates_S2x1x64x64x64_S2x1x64x64x64_S2x1x64x64x64_S2x1x64x64x64_S2x1x64x64x64_S2x1x64x64x64_S2x1x64x64x64_S2x1x64x64x64_S2x1x64x64x64_S2x1x64x64x64_S2x1x64x64x64_S2x1x64x64x64_S2x1x64x64x64_S2x1x64x64x64_S2x1x64x64x64_S2x1x64x64x64_S2x16x64x64x64_d1 : Shape.Concatenates [S2x1x64x64x64, S2x1x64x64x64, S2x1x64x64x64, S2x1x64x64x64, S2x1x64x64x64, S2x1x64x64x64, S2x1x64x64x64, S2x1x64x64x64, S2x1x64x64x64, S2x1x64x64x64, S2x1x64x64x64, S2x1x64x64x64, S2x1x64x64x64, S2x1x64x64x64, S2x1x64x64x64, S2x1x64x64x64] S2x16x64x64x64 1
  concatenates_S2x1x64x64x64_S2x1x64x64x64_S2x1x64x64x64_S2x1x64x64x64_S2x1x64x64x64_S2x1x64x64x64_S2x1x64x64x64_S2x1x64x64x64_S2x1x64x64x64_S2x1x64x64x64_S2x1x64x64x64_S2x11x64x64x64_d1 : Shape.Concatenates [S2x1x64x64x64, S2x1x64x64x64, S2x1x64x64x64, S2x1x64x64x64, S2x1x64x64x64, S2x1x64x64x64, S2x1x64x64x64, S2x1x64x64x64, S2x1x64x64x64, S2x1x64x64x64, S2x1x64x64x64] S2x11x64x64x64 1
  concatenates_S2x16x64x64x64_S2x11x64x64x64_S2x27x64x64x64_d1 : Shape.Concatenates [S2x16x64x64x64, S2x11x64x64x64] S2x27x64x64x64 1

variable [Facts₀]

class Facts : Prop extends Facts₀ where

variable [Facts]
-- ==== Proof.CorrSpec.lean ====
/-
  The correlation volume, as one function of the two argument arrays.

  For a batch `b`, a displacement `(dx, dy, dz) ∈ {0, 1, 2}³` numbered `o = 9 dx + 3 dy + dz`, and a voxel `(d, h, w)`,
  the entry `(b, o, d, h, w)` of the result is the mean over the 64 channels `k` of
  `x₁[b, k, d, h, w] · x₂ᵖ[b, k, d + dx, h + dy, w + dz]`, where `x₂ᵖ` is the second argument padded by one zero on each side
  of its three spatial axes. The displacement is read off its number: `dx = o / 9`, `dy = o / 3 % 3`, `dz = o % 3`.

  The mean is written here the way a channel-by-channel accumulation builds it: start from zero and add, for
  `k = 0, 1, …, 63` in turn, the `k`-th product times `1/64` (`runSum`). Summing all 64 products first and dividing by
  `64` once gives the same extended real: multiplying by a non-negative finite number distributes over ANY sum of
  extended reals, infinite terms included (`EReal.right_distrib_of_nonneg_of_ne_top`), so no finiteness of the entries
  is needed (`mean_eq_runSum`).
-/
import Mathlib.Data.EReal.Operations
import Idealize.ShloMosaic.PureOps.Ideal
import Idealize.ShloMosaic.PureOps.Ideal.Laws
import Idealize.ShloMosaic.Lib.ValueIdx

noncomputable section

open scoped BigOperators

namespace Cert.Corr

open Idealize.ShloMosaic Idealize.ShloMosaic.ValueIdx

/-! ## The two float constants -/

/-- The word `0x3C800000` is `2⁻⁶`: the real `1/64`. -/
theorem ofBits_inv64 : Ideal.ofBits .f32 0x3C800000#32 = ((1 / 64 : ℝ) : EReal) := by
  simp [Ideal.ofBits, Ideal.ieee, -EReal.coe_mul] <;> norm_num

/-- The word `0x42800000` is `2⁶`: the real `64`. -/
theorem ofBits_64 : Ideal.ofBits .f32 0x42800000#32 = ((64 : ℝ) : EReal) := by
  simp [Ideal.ofBits, Ideal.ieee, -EReal.coe_mul] <;> norm_num

/-! ## A sum built one scaled term at a time -/

/-- `0 + a₀ c`, then `+ aₙ c` for each later `n`: the terms scaled one by one and added in order. -/
def runSum (a : ℕ → EReal) (c : EReal) : ℕ → EReal
  | 0 => 0 + a 0 * c
  | n + 1 => runSum a c n + a (n + 1) * c

/-- For a non-negative real scale the running sum is the sum of the terms, scaled once. -/
theorem runSum_eq (a : ℕ → EReal) (c : ℝ) (hc : 0 ≤ c) :
    ∀ n, runSum a (c : EReal) n = (∑ k ∈ Finset.range (n + 1), a k) * (c : EReal)
  | 0 => by simp [runSum]
  | n + 1 => by
    rw [runSum, runSum_eq a c hc n, Finset.sum_range_succ _ (n + 1),
      EReal.right_distrib_of_nonneg_of_ne_top (by exact_mod_cast hc) (EReal.coe_ne_top c)]

/-- 64 terms, as a sequence that is zero from the 64th on. -/
def seq64 (f : Fin 64 → EReal) (k : ℕ) : EReal := if h : k < 64 then f ⟨k, h⟩ else 0

theorem runSum_zero (a : ℕ → EReal) (c : EReal) : runSum a c 0 = 0 + a 0 * c := rfl
theorem runSum_succ (a : ℕ → EReal) (c : EReal) (n : ℕ) : runSum a c (n + 1) = runSum a c n + a (n + 1) * c := rfl
theorem seq64_of_lt (f : Fin 64 → EReal) (k : ℕ) (h : k < 64) : seq64 f k = f ⟨k, h⟩ := dif_pos h

/-- THE LAW joining the two programs: zero plus the sum of 64 terms, divided by `64`, is the running sum of the terms each
    scaled by `2⁻⁶`. -/
theorem mean_eq_runSum (f : Fin 64 → EReal) :
    Ideal.div (Ideal.ofBits .f32 0x00000000#32 + ∑ k : Fin 64, f k) (Ideal.ofBits .f32 0x42800000#32)
      = runSum (seq64 f) (Ideal.ofBits .f32 0x3C800000#32) 63 := by
  rw [ofBits_64, ofBits_inv64, Ideal.ofBits_zero_f32, zero_add, Ideal.div_coe (by norm_num), runSum_eq _ _ (by norm_num)]
  show _ = (∑ k ∈ Finset.range 64, seq64 f k) * _
  rw [Finset.sum_range]
  refine congrArg (· * _) (Finset.sum_congr rfl fun k _ => ?_)
  simp [seq64, k.isLt]

/-! ## The specification -/

abbrev SArg : Shape := ⟨5, ![2, 64, 64, 64, 64]⟩
abbrev SPad : Shape := ⟨5, ![2, 64, 66, 66, 66]⟩
abbrev SOut : Shape := ⟨5, ![2, 27, 64, 64, 64]⟩

/-- Where displacement number `o` sends voxel `(d, h, w)` of channel `k` of batch `b`, in the padded array. -/
abbrev padIx (b : Fin 2) (k : Fin 64) (o : Fin 27) (d h w : Fin 64) : SPad.Idx :=
  ix5 b k ⟨o.val / 9 + d.val, by omega⟩ ⟨o.val / 3 % 3 + h.val, by omega⟩ ⟨o.val % 3 + w.val, by omega⟩

/-- Channel `k`'s product at entry `(b, o, d, h, w)`. -/
def prod (x : SArg.Idx → EReal) (xp : SPad.Idx → EReal) (b : Fin 2) (o : Fin 27) (d h w : Fin 64) (k : Fin 64) : EReal :=
  x (ix5 b k d h w) * xp (padIx b k o d h w)

/-- The correlation volume of `x` and the padded array `xp`. -/
def corr (x : SArg.Idx → EReal) (xp : SPad.Idx → EReal) : SOut.Idx → EReal := fun j =>
  runSum (seq64 (prod x xp (j 0) (j 1) (j 2) (j 3) (j 4))) (Ideal.ofBits .f32 0x3C800000#32) 63

end Cert.Corr

end
-- ==== Proof.CorrStep.lean ====
/-
  One displacement's update of the running mean, read at an entry.

  A block of the first argument `x`, the equally shaped window `sh` of the padded block that a displacement selects, and
  the accumulator's slice `acc` for that displacement are all `[1, 1, 64, 64, 64]`. The update multiplies `x` and `sh` entry
  by entry, sums over the second axis — a single term, the axis having one coordinate —, scales by `2⁻⁶` and adds the result
  to `acc`. Read at an entry `y` this is `acc y + x y · sh y · 2⁻⁶` (`step_apply`): the two re-views of the shape between the
  operations move no entry.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Corr

open Idealize.ShloMosaic Idealize.ShloMosaic.ValueIdx

abbrev B5 : Shape := ⟨5, ![1, 1, 64, 64, 64]⟩
abbrev B4 : Shape := ⟨4, ![1, 64, 64, 64]⟩

/-- The update, in the operations the kernel applies. -/
def step (hc : B5.ShapeCasts B5) (hc' : B4.ShapeCasts B5) (hr : B5.Reduces [1] B4)
    (x sh acc : FVec Ideal B5 .f32) : FVec Ideal B5 .f32 :=
  addf (shapeCast B5 acc hc)
    (mulf (shapeCast B5 (multiReduction .add [1] B4 (mulf x (shapeCast B5 sh hc)) 0x00000000#32 hr (.inl rfl) rfl) hc')
      (broadcast B5 (Scalar.ofBits .f32 0x3C800000#32)))

/-- The entry of the `[1, 1, 64, 64, 64]` block over an entry of the summed `[1, 64, 64, 64]` block: the second axis has the
    one coordinate `0`. -/
theorem lift_eq (hr : B5.Reduces [1] B4) (y : B5.Idx) (k : Fin (B5.size 1)) : hr.lift (fun a => y a.succ) k = y := by
  funext c
  apply Fin.ext
  have hk : k.val = 0 := by have h : k.val < 1 := k.isLt; omega
  have hy0 : (y 0).val = 0 := by have h : (y 0).val < 1 := (y 0).isLt; omega
  have hy1 : (y 1).val = 0 := by have h : (y 1).val < 1 := (y 1).isLt; omega
  match c with
  | ⟨0, _⟩ => show (y 1).val = (y 0).val; rw [hy0, hy1]
  | ⟨1, _⟩ => show k.val = (y 1).val; rw [hk, hy1]
  | ⟨2, _⟩ => rfl
  | ⟨3, _⟩ => rfl
  | ⟨4, _⟩ => rfl

/-- The update at an entry. -/
theorem step_apply (hc : B5.ShapeCasts B5) (hc' : B4.ShapeCasts B5) (hr : B5.Reduces [1] B4)
    (x sh acc : FVec Ideal B5 .f32) (y : B5.Idx) :
    step hc hc' hr x sh acc y = acc y + x y * sh y * Ideal.ofBits .f32 0x3C800000#32 := by
  unfold step
  rw [addf_apply, mulf_apply, shapeCast_self, shapeCast_self, broadcast_apply]
  refine congrArg (acc y + ·) (congrArg (· * _) ?_)
  refine (shapeCast_addUnit_apply ![1, 64, 64, 64] _ hc' y).trans ?_
  refine (Ideal.multiReduction_add_single (mulf x sh) 0x00000000#32 hr (.inl rfl) rfl (fun a => y a.succ)).trans ?_
  show ∑ k : Fin 1, mulf x sh (hr.lift (fun a => y a.succ) k) = _
  rw [Fin.sum_univ_one]
  exact congrArg (mulf x sh) (lift_eq hr y (0 : Fin 1))

end Cert.Corr

end
-- ==== Proof.CorrBody.lean ====
/-
  What one run of the kernel body leaves in the accumulator block.

  The accumulator block is `[1, 27, 64, 64, 64]`: slice `o` of its second axis belongs to displacement number `o`, with
  `(dx, dy, dz) = (o / 9, o / 3 % 3, o % 3)`. The body makes 27 stores, one per slice. Store `o` writes, at voxel `(d, h, w)`,
  what it read of the slice there plus `x[d, h, w] · xp[dx + d, dy + h, dz + w] · 2⁻⁶`, where `x` is the `[1, 1, 64, 64, 64]` block
  of the first argument and `xp` the `[1, 1, 66, 66, 66]` block of the padded second argument (`store_apply`).

  The stores touch disjoint slices, so the block after the body is, slice by slice, what was read plus the term (`upd`):
    – on a later channel what is read is the block the previous channel left (`out_B`);
    – on a batch's first channel the body first fills the whole block with zeros, and each store reads its own slice
      back: still zero, no earlier store having touched it (`out_A`).
  Both are proved by adding the stores one at a time, in the order the body makes them.
-/
import proofs.«137139_j36077725286488_2_alg».proof.Proof.Gen.KernelIdeal.Frame
import proofs.«137139_j36077725286488_2_alg».proof.Proof.CorrStep
import Idealize.ShloMosaic.PureOps.Ideal
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.CorrBody

open Cert.KernelIdeal Cert.KernelIdeal.Gen Cert.Corr
open Idealize.ShloMosaic Idealize.ShloMosaic.TcCoe Idealize.ShloMosaic.ValueIdx Idealize.SL.Sem

/-- The scale `2⁻⁶`. -/
abbrev cInv : EReal := Ideal.ofBits .f32 0x3C800000#32

/-- Displacement `o`'s term at voxel `(d, h, w)`. -/
def term (x0 : Vec Ideal S1x1x64x64x64 .f32) (x1 : Vec Ideal S1x1x66x66x66 .f32) (o : Fin 27) (d h w : Fin 64) : EReal :=
  x0 (ix5 (0 : Fin 1) (0 : Fin 1) d h w)
    * x1 (ix5 (0 : Fin 1) (0 : Fin 1) (⟨o.val / 9 + d.val, by omega⟩ : Fin 66) (⟨o.val / 3 % 3 + h.val, by omega⟩ : Fin 66)
        (⟨o.val % 3 + w.val, by omega⟩ : Fin 66))
    * cInv

/-- The accumulator block `A` with every displacement's term added. -/
def upd (x0 : Vec Ideal S1x1x64x64x64 .f32) (x1 : Vec Ideal S1x1x66x66x66 .f32) (A : S1x27x64x64x64.Idx → EReal) :
    S1x27x64x64x64.Idx → EReal :=
  fun y => A y + term x0 x1 ⟨(y 1).val, (y 1).isLt⟩ ⟨(y 2).val, (y 2).isLt⟩ ⟨(y 3).val, (y 3).isLt⟩ ⟨(y 4).val, (y 4).isLt⟩

theorem hz : (![0, 0, 0, 0, 0] : Fin 5 → Nat) = fun _ => 0 :=
  funext fun a => by match a with | ⟨0, _⟩ => rfl | ⟨1, _⟩ => rfl | ⟨2, _⟩ => rfl | ⟨3, _⟩ => rfl | ⟨4, _⟩ => rfl

/-- Store `k`'s payload at a local index is `upd` at the index's place in the block: what was read of slice `k` there, plus
    displacement `k`'s term. `A` is what the accumulator's load reads, as a function of the block index. -/
theorem store_apply (k dx dy dz : ℕ) (hk : k = 9 * dx + 3 * dy + dz) (hdx : dx ≤ 2) (hdy : dy ≤ 2) (hdz : dz ≤ 2)
    (offO : Fin 5 → ℕ) (hO : offO = ![0, k, 0, 0, 0]) (inbO : ∀ a, offO a + S1x1x64x64x64.size a ≤ S1x27x64x64x64.size a)
    (offS : Fin 5 → ℕ) (hS : offS = ![0, 0, dx, dy, dz]) (inbS : ∀ a, offS a + S1x1x64x64x64.size a ≤ S1x1x66x66x66.size a)
    (off0 : Fin 5 → ℕ) (h0 : off0 = ![0, 0, 0, 0, 0]) (inb0 : ∀ a, off0 a + S1x1x64x64x64.size a ≤ S1x1x64x64x64.size a)
    (a2 : Memref sig .tc .vmem S1x1x64x64x64 .f32) (h2 : a2.IsWhole) (a3 : Memref sig .tc .vmem S1x1x66x66x66 .f32) (h3 : a3.IsWhole)
    (x0 : Vec Ideal S1x1x64x64x64 .f32) (x1 : Vec Ideal S1x1x66x66x66 .f32)
    (acc : FVec Ideal B5 .f32) (A : S1x27x64x64x64.Idx → EReal)
    (hacc : ∀ x, acc x = A ((Rect.unit (s := S1x27x64x64x64) offO S1x1x64x64x64.size inbO).idx x))
    (x : B5.Idx) :
    step shapeCasts_S1x1x64x64x64_S1x1x64x64x64 shapeCasts_S1x64x64x64_S1x1x64x64x64 reduces_S1x1x64x64x64_S1x64x64x64
        (View.readAt (Elt Ideal) a2.view (Rect.unit (s := S1x1x64x64x64) off0 S1x1x64x64x64.size inb0).toLoadRect (h2.unread x0))
        (View.readAt (Elt Ideal) a3.view (Rect.unit (s := S1x1x66x66x66) offS S1x1x64x64x64.size inbS).toLoadRect (h3.unread x1))
        acc x
      = upd x0 x1 A ((Rect.unit (s := S1x27x64x64x64) offO S1x1x64x64x64.size inbO).emb x) := by
  subst hO hS h0
  obtain ⟨p, q, d, h, w, rfl⟩ : ∃ (p q : Fin 1) (d h w : Fin 64), x = ix5 p q d h w := ⟨x 0, x 1, x 2, x 3, x 4, eq_ix5 x⟩
  have hp : p.val = 0 := by have := p.isLt; omega
  have hq : q.val = 0 := by have := q.isLt; omega
  rw [step_apply, hacc]
  simp only [View.readAt_eq_ld, h2.read_unread, h3.read_unread, View.ld_unit_zero (S := S1x1x64x64x64) hz]
  unfold upd term
  refine congrArg₂ (· + ·) rfl (congrArg₂ (· * ·) (congrArg₂ (· * ·) (congrArg x0 ?_) (congrArg x1 ?_)) rfl)
  · funext a
    apply Fin.ext
    match a with
    | ⟨0, _⟩ => show 0 + 1 * p.val = 0; omega
    | ⟨1, _⟩ => show 0 + 1 * q.val = 0; omega
    | ⟨2, _⟩ => rfl
    | ⟨3, _⟩ => rfl
    | ⟨4, _⟩ => rfl
  · funext a
    apply Fin.ext
    match a with
    | ⟨0, _⟩ => show 0 + 1 * p.val = 0; omega
    | ⟨1, _⟩ => show 0 + 1 * q.val = 0; omega
    | ⟨2, _⟩ => show dx + 1 * d.val = (k + 1 * q.val) / 9 + (0 + 1 * d.val); omega
    | ⟨3, _⟩ => show dy + 1 * h.val = (k + 1 * q.val) / 3 % 3 + (0 + 1 * h.val); omega
    | ⟨4, _⟩ => show dz + 1 * w.val = (k + 1 * q.val) % 3 + (0 + 1 * w.val); omega

/-- Off slice `k`, store `k` changes nothing: the index is outside its rectangle, the second coordinate differing. -/
theorem canon_cons_of_ne (k : ℕ) (offO : Fin 5 → ℕ) (hO : offO = ![0, k, 0, 0, 0])
    (inbO : ∀ a, offO a + S1x1x64x64x64.size a ≤ S1x27x64x64x64.size a) (pay : FVec Ideal B5 .f32)
    (L : List (View.Piece (Elt Ideal) S1x27x64x64x64 .f32)) (y : S1x27x64x64x64.Idx) (hne : (y 1).val ≠ k) :
    View.canon ((⟨(Rect.unit (s := S1x27x64x64x64) offO S1x1x64x64x64.size inbO), pay⟩ : View.Piece (Elt Ideal) S1x27x64x64x64 .f32) :: L) y = View.canon L y := by
  refine View.canon_cons_of_not_mem _ L ?_
  subst hO
  show y ∉ (Rect.unit (s := S1x27x64x64x64) ![0, k, 0, 0, 0] S1x1x64x64x64.size inbO).set
  rw [Rect.mem_set_unit]
  intro h
  have h1 : k ≤ (y 1).val ∧ (y 1).val < k + 1 := h 1
  omega

/-- On slice `k`, an index of the block is the place of its own voxel in store `k`'s rectangle. -/
theorem exists_emb_of_eq (k : ℕ) (offO : Fin 5 → ℕ) (hO : offO = ![0, k, 0, 0, 0])
    (inbO : ∀ a, offO a + S1x1x64x64x64.size a ≤ S1x27x64x64x64.size a) (y : S1x27x64x64x64.Idx) (he : (y 1).val = k) :
    ∃ x : B5.Idx, y = (Rect.unit (s := S1x27x64x64x64) offO S1x1x64x64x64.size inbO).emb x := by
  subst hO
  have y0 : (y 0).val < 1 := (y 0).isLt
  have y2 : (y 2).val < 64 := (y 2).isLt
  have y3 : (y 3).val < 64 := (y 3).isLt
  have y4 : (y 4).val < 64 := (y 4).isLt
  refine ⟨ix5 (0 : Fin 1) (0 : Fin 1) ⟨(y 2).val, y2⟩ ⟨(y 3).val, y3⟩ ⟨(y 4).val, y4⟩, ?_⟩
  funext a
  apply Fin.ext
  match a with
  | ⟨0, _⟩ => show (y 0).val = 0 + 1 * 0; omega
  | ⟨1, _⟩ => show (y 1).val = k + 1 * 0; omega
  | ⟨2, _⟩ => show (y 2).val = 0 + 1 * (y 2).val; omega
  | ⟨3, _⟩ => show (y 3).val = 0 + 1 * (y 3).val; omega
  | ⟨4, _⟩ => show (y 4).val = 0 + 1 * (y 4).val; omega

/-- The second coordinate of a place in store `k`'s rectangle is `k`. -/
theorem emb_one (k : ℕ) (offO : Fin 5 → ℕ) (hO : offO = ![0, k, 0, 0, 0])
    (inbO : ∀ a, offO a + S1x1x64x64x64.size a ≤ S1x27x64x64x64.size a) (x : B5.Idx) : (((Rect.unit (s := S1x27x64x64x64) offO S1x1x64x64x64.size inbO).emb x) 1).val = k := by
  subst hO
  have hx : (x 1).val < 1 := (x 1).isLt
  show k + 1 * (x 1).val = k
  omega

/-- A LATER CHANNEL, one store more. If the stores made so far leave `upd … xo` on the slices below `k`, then with store `k`,
    which reads slice `k` of the block `xo` the previous channel left, they leave it on the slices below `k + 1`. -/
theorem stepB (k dx dy dz : ℕ) (hk : k = 9 * dx + 3 * dy + dz) (hdx : dx ≤ 2) (hdy : dy ≤ 2) (hdz : dz ≤ 2)
    (offO : Fin 5 → ℕ) (hO : offO = ![0, k, 0, 0, 0]) (inbO : ∀ a, offO a + S1x1x64x64x64.size a ≤ S1x27x64x64x64.size a)
    (offS : Fin 5 → ℕ) (hS : offS = ![0, 0, dx, dy, dz]) (inbS : ∀ a, offS a + S1x1x64x64x64.size a ≤ S1x1x66x66x66.size a)
    (off0 : Fin 5 → ℕ) (h0 : off0 = ![0, 0, 0, 0, 0]) (inb0 : ∀ a, off0 a + S1x1x64x64x64.size a ≤ S1x1x64x64x64.size a)
    (a2 : Memref sig .tc .vmem S1x1x64x64x64 .f32) (h2 : a2.IsWhole) (a3 : Memref sig .tc .vmem S1x1x66x66x66 .f32) (h3 : a3.IsWhole)
    (a4 : Memref sig .tc .vmem S1x27x64x64x64 .f32) (h4 : a4.IsWhole)
    (x0 : Vec Ideal S1x1x64x64x64 .f32) (x1 : Vec Ideal S1x1x66x66x66 .f32) (xo : Vec Ideal S1x27x64x64x64 .f32)
    (pay : FVec Ideal B5 .f32)
    (hpay : pay = step shapeCasts_S1x1x64x64x64_S1x1x64x64x64 shapeCasts_S1x64x64x64_S1x1x64x64x64 reduces_S1x1x64x64x64_S1x64x64x64
        (View.readAt (Elt Ideal) a2.view (Rect.unit (s := S1x1x64x64x64) off0 S1x1x64x64x64.size inb0).toLoadRect (h2.unread x0))
        (View.readAt (Elt Ideal) a3.view (Rect.unit (s := S1x1x66x66x66) offS S1x1x64x64x64.size inbS).toLoadRect (h3.unread x1))
        (View.readAt (Elt Ideal) a4.view (Rect.unit (s := S1x27x64x64x64) offO S1x1x64x64x64.size inbO).toLoadRect (h4.unread xo)))
    (L : List (View.Piece (Elt Ideal) S1x27x64x64x64 .f32))
    (hL : ∀ y : S1x27x64x64x64.Idx, (y 1).val < k → View.canon L y = upd x0 x1 xo y) :
    ∀ y : S1x27x64x64x64.Idx, (y 1).val < k + 1 →
      View.canon ((⟨(Rect.unit (s := S1x27x64x64x64) offO S1x1x64x64x64.size inbO), pay⟩ : View.Piece (Elt Ideal) S1x27x64x64x64 .f32) :: L) y = upd x0 x1 xo y := by
  intro y hy
  by_cases he : (y 1).val = k
  · obtain ⟨x, rfl⟩ := exists_emb_of_eq k offO hO inbO y he
    rw [View.canon_cons_emb, hpay]
    exact store_apply k dx dy dz hk hdx hdy hdz offO hO inbO offS hS inbS off0 h0 inb0 a2 h2 a3 h3 x0 x1 _ xo
      (fun x => by rw [View.readAt_eq_ld, h4.read_unread]) x
  · rw [canon_cons_of_ne k offO hO inbO pay L y he]
    exact hL y (by omega)

/-- The block of zeros a batch's first channel starts from. -/
abbrev zeroBlk : S1x27x64x64x64.Idx → EReal := fun _ => Ideal.ofBits .f32 0x00000000#32

/-- A FIRST CHANNEL, one store more. If the stores made so far leave `upd … 0` on the slices below `k` and zero on the others,
    then with store `k`, which reads slice `k` back from those stores — zero —, they leave the same with `k + 1` for `k`. -/
theorem stepA (k dx dy dz : ℕ) (hk : k = 9 * dx + 3 * dy + dz) (hdx : dx ≤ 2) (hdy : dy ≤ 2) (hdz : dz ≤ 2)
    (offO : Fin 5 → ℕ) (hO : offO = ![0, k, 0, 0, 0]) (inbO : ∀ a, offO a + S1x1x64x64x64.size a ≤ S1x27x64x64x64.size a)
    (offS : Fin 5 → ℕ) (hS : offS = ![0, 0, dx, dy, dz]) (inbS : ∀ a, offS a + S1x1x64x64x64.size a ≤ S1x1x66x66x66.size a)
    (off0 : Fin 5 → ℕ) (h0 : off0 = ![0, 0, 0, 0, 0]) (inb0 : ∀ a, off0 a + S1x1x64x64x64.size a ≤ S1x1x64x64x64.size a)
    (a2 : Memref sig .tc .vmem S1x1x64x64x64 .f32) (h2 : a2.IsWhole) (a3 : Memref sig .tc .vmem S1x1x66x66x66 .f32) (h3 : a3.IsWhole)
    (a4 : Memref sig .tc .vmem S1x27x64x64x64 .f32)
    (x0 : Vec Ideal S1x1x64x64x64 .f32) (x1 : Vec Ideal S1x1x66x66x66 .f32)
    (L : List (View.Piece (Elt Ideal) S1x27x64x64x64 .f32))
    (pay : FVec Ideal B5 .f32)
    (hpay : pay = step shapeCasts_S1x1x64x64x64_S1x1x64x64x64 shapeCasts_S1x64x64x64_S1x1x64x64x64 reduces_S1x1x64x64x64_S1x64x64x64
        (View.readAt (Elt Ideal) a2.view (Rect.unit (s := S1x1x64x64x64) off0 S1x1x64x64x64.size inb0).toLoadRect (h2.unread x0))
        (View.readAt (Elt Ideal) a3.view (Rect.unit (s := S1x1x66x66x66) offS S1x1x64x64x64.size inbS).toLoadRect (h3.unread x1))
        (a4.view.readCov L (Rect.unit (s := S1x27x64x64x64) offO S1x1x64x64x64.size inbO).toLoadRect))
    (hL : ∀ y : S1x27x64x64x64.Idx, View.canon L y = if (y 1).val < k then upd x0 x1 zeroBlk y else Ideal.ofBits .f32 0x00000000#32) :
    ∀ y : S1x27x64x64x64.Idx,
      View.canon ((⟨(Rect.unit (s := S1x27x64x64x64) offO S1x1x64x64x64.size inbO), pay⟩ : View.Piece (Elt Ideal) S1x27x64x64x64 .f32) :: L) y
        = if (y 1).val < k + 1 then upd x0 x1 zeroBlk y else Ideal.ofBits .f32 0x00000000#32 := by
  intro y
  by_cases he : (y 1).val = k
  · obtain ⟨x, rfl⟩ := exists_emb_of_eq k offO hO inbO y he
    rw [if_pos (by omega), View.canon_cons_emb, hpay]
    refine (store_apply k dx dy dz hk hdx hdy hdz offO hO inbO offS hS inbS off0 h0 inb0 a2 h2 a3 h3 x0 x1 _ (View.canon L)
      (fun x => congrFun (View.readCov_eq_canon' a4.view L (Rect.unit (s := S1x27x64x64x64) offO S1x1x64x64x64.size inbO).toLoadRect) x) x).trans ?_
    unfold upd
    refine congrArg₂ (· + ·) ?_ rfl
    rw [hL, if_neg (by omega)]
  · rw [canon_cons_of_ne k offO hO inbO pay L y he, hL]
    by_cases hlt : (y 1).val < k + 1
    · rw [if_pos (by omega), if_pos hlt]
    · rw [if_neg (by omega), if_neg hlt]

/-! ## The two cases of the body -/

/-- LATER CHANNELS: the body leaves the previous channel's block `xo` with every displacement's term added. -/
theorem out_B (c : Dev nD) (i : grid0.Coords) (a2 : Memref sig .tc .vmem S1x1x64x64x64 .f32) (h2 : a2.IsWhole)
    (a3 : Memref sig .tc .vmem S1x1x66x66x66 .f32) (h3 : a3.IsWhole) (a4 : Memref sig .tc .vmem S1x27x64x64x64 .f32) (h4 : a4.IsWhole)
    (hc0 : ¬cond0_0 i) (x0 : Vec Ideal S1x1x64x64x64 .f32) (x1 : Vec Ideal S1x1x66x66x66 .f32) (xo : Vec Ideal S1x27x64x64x64 .f32) :
    out0_B_2 (F := Ideal) c i a2 h2 a3 h3 a4 h4 hc0 x0 x1 xo = upd x0 x1 xo := by
  unfold out0_B_2
  rw [View.read_writes_eq_canon _ _ _ (cover0_B_2 c i a2 h2 a3 h3 a4 h4 hc0 x0 x1 xo)]
  funext y
  have hy : (y 1).val < 27 := (y 1).isLt
  revert y
  unfold kernelRun0_B
  dsimp only
  refine stepB 26 2 2 2 rfl (by decide) (by decide) (by decide) ![0, 26, 0, 0, 0] rfl _ ![0, 0, 2, 2, 2] rfl _ ![0, 0, 0, 0, 0] rfl _ a2 h2 a3 h3 a4 h4 x0 x1 xo _ rfl _ ?_
  refine stepB 25 2 2 1 rfl (by decide) (by decide) (by decide) ![0, 25, 0, 0, 0] rfl _ ![0, 0, 2, 2, 1] rfl _ ![0, 0, 0, 0, 0] rfl _ a2 h2 a3 h3 a4 h4 x0 x1 xo _ rfl _ ?_
  refine stepB 24 2 2 0 rfl (by decide) (by decide) (by decide) ![0, 24, 0, 0, 0] rfl _ ![0, 0, 2, 2, 0] rfl _ ![0, 0, 0, 0, 0] rfl _ a2 h2 a3 h3 a4 h4 x0 x1 xo _ rfl _ ?_
  refine stepB 23 2 1 2 rfl (by decide) (by decide) (by decide) ![0, 23, 0, 0, 0] rfl _ ![0, 0, 2, 1, 2] rfl _ ![0, 0, 0, 0, 0] rfl _ a2 h2 a3 h3 a4 h4 x0 x1 xo _ rfl _ ?_
  refine stepB 22 2 1 1 rfl (by decide) (by decide) (by decide) ![0, 22, 0, 0, 0] rfl _ ![0, 0, 2, 1, 1] rfl _ ![0, 0, 0, 0, 0] rfl _ a2 h2 a3 h3 a4 h4 x0 x1 xo _ rfl _ ?_
  refine stepB 21 2 1 0 rfl (by decide) (by decide) (by decide) ![0, 21, 0, 0, 0] rfl _ ![0, 0, 2, 1, 0] rfl _ ![0, 0, 0, 0, 0] rfl _ a2 h2 a3 h3 a4 h4 x0 x1 xo _ rfl _ ?_
  refine stepB 20 2 0 2 rfl (by decide) (by decide) (by decide) ![0, 20, 0, 0, 0] rfl _ ![0, 0, 2, 0, 2] rfl _ ![0, 0, 0, 0, 0] rfl _ a2 h2 a3 h3 a4 h4 x0 x1 xo _ rfl _ ?_
  refine stepB 19 2 0 1 rfl (by decide) (by decide) (by decide) ![0, 19, 0, 0, 0] rfl _ ![0, 0, 2, 0, 1] rfl _ ![0, 0, 0, 0, 0] rfl _ a2 h2 a3 h3 a4 h4 x0 x1 xo _ rfl _ ?_
  refine stepB 18 2 0 0 rfl (by decide) (by decide) (by decide) ![0, 18, 0, 0, 0] rfl _ ![0, 0, 2, 0, 0] rfl _ ![0, 0, 0, 0, 0] rfl _ a2 h2 a3 h3 a4 h4 x0 x1 xo _ rfl _ ?_
  refine stepB 17 1 2 2 rfl (by decide) (by decide) (by decide) ![0, 17, 0, 0, 0] rfl _ ![0, 0, 1, 2, 2] rfl _ ![0, 0, 0, 0, 0] rfl _ a2 h2 a3 h3 a4 h4 x0 x1 xo _ rfl _ ?_
  refine stepB 16 1 2 1 rfl (by decide) (by decide) (by decide) ![0, 16, 0, 0, 0] rfl _ ![0, 0, 1, 2, 1] rfl _ ![0, 0, 0, 0, 0] rfl _ a2 h2 a3 h3 a4 h4 x0 x1 xo _ rfl _ ?_
  refine stepB 15 1 2 0 rfl (by decide) (by decide) (by decide) ![0, 15, 0, 0, 0] rfl _ ![0, 0, 1, 2, 0] rfl _ ![0, 0, 0, 0, 0] rfl _ a2 h2 a3 h3 a4 h4 x0 x1 xo _ rfl _ ?_
  refine stepB 14 1 1 2 rfl (by decide) (by decide) (by decide) ![0, 14, 0, 0, 0] rfl _ ![0, 0, 1, 1, 2] rfl _ ![0, 0, 0, 0, 0] rfl _ a2 h2 a3 h3 a4 h4 x0 x1 xo _ rfl _ ?_
  refine stepB 13 1 1 1 rfl (by decide) (by decide) (by decide) ![0, 13, 0, 0, 0] rfl _ ![0, 0, 1, 1, 1] rfl _ ![0, 0, 0, 0, 0] rfl _ a2 h2 a3 h3 a4 h4 x0 x1 xo _ rfl _ ?_
  refine stepB 12 1 1 0 rfl (by decide) (by decide) (by decide) ![0, 12, 0, 0, 0] rfl _ ![0, 0, 1, 1, 0] rfl _ ![0, 0, 0, 0, 0] rfl _ a2 h2 a3 h3 a4 h4 x0 x1 xo _ rfl _ ?_
  refine stepB 11 1 0 2 rfl (by decide) (by decide) (by decide) ![0, 11, 0, 0, 0] rfl _ ![0, 0, 1, 0, 2] rfl _ ![0, 0, 0, 0, 0] rfl _ a2 h2 a3 h3 a4 h4 x0 x1 xo _ rfl _ ?_
  refine stepB 10 1 0 1 rfl (by decide) (by decide) (by decide) ![0, 10, 0, 0, 0] rfl _ ![0, 0, 1, 0, 1] rfl _ ![0, 0, 0, 0, 0] rfl _ a2 h2 a3 h3 a4 h4 x0 x1 xo _ rfl _ ?_
  refine stepB 9 1 0 0 rfl (by decide) (by decide) (by decide) ![0, 9, 0, 0, 0] rfl _ ![0, 0, 1, 0, 0] rfl _ ![0, 0, 0, 0, 0] rfl _ a2 h2 a3 h3 a4 h4 x0 x1 xo _ rfl _ ?_
  refine stepB 8 0 2 2 rfl (by decide) (by decide) (by decide) ![0, 8, 0, 0, 0] rfl _ ![0, 0, 0, 2, 2] rfl _ ![0, 0, 0, 0, 0] rfl _ a2 h2 a3 h3 a4 h4 x0 x1 xo _ rfl _ ?_
  refine stepB 7 0 2 1 rfl (by decide) (by decide) (by decide) ![0, 7, 0, 0, 0] rfl _ ![0, 0, 0, 2, 1] rfl _ ![0, 0, 0, 0, 0] rfl _ a2 h2 a3 h3 a4 h4 x0 x1 xo _ rfl _ ?_
  refine stepB 6 0 2 0 rfl (by decide) (by decide) (by decide) ![0, 6, 0, 0, 0] rfl _ ![0, 0, 0, 2, 0] rfl _ ![0, 0, 0, 0, 0] rfl _ a2 h2 a3 h3 a4 h4 x0 x1 xo _ rfl _ ?_
  refine stepB 5 0 1 2 rfl (by decide) (by decide) (by decide) ![0, 5, 0, 0, 0] rfl _ ![0, 0, 0, 1, 2] rfl _ ![0, 0, 0, 0, 0] rfl _ a2 h2 a3 h3 a4 h4 x0 x1 xo _ rfl _ ?_
  refine stepB 4 0 1 1 rfl (by decide) (by decide) (by decide) ![0, 4, 0, 0, 0] rfl _ ![0, 0, 0, 1, 1] rfl _ ![0, 0, 0, 0, 0] rfl _ a2 h2 a3 h3 a4 h4 x0 x1 xo _ rfl _ ?_
  refine stepB 3 0 1 0 rfl (by decide) (by decide) (by decide) ![0, 3, 0, 0, 0] rfl _ ![0, 0, 0, 1, 0] rfl _ ![0, 0, 0, 0, 0] rfl _ a2 h2 a3 h3 a4 h4 x0 x1 xo _ rfl _ ?_
  refine stepB 2 0 0 2 rfl (by decide) (by decide) (by decide) ![0, 2, 0, 0, 0] rfl _ ![0, 0, 0, 0, 2] rfl _ ![0, 0, 0, 0, 0] rfl _ a2 h2 a3 h3 a4 h4 x0 x1 xo _ rfl _ ?_
  refine stepB 1 0 0 1 rfl (by decide) (by decide) (by decide) ![0, 1, 0, 0, 0] rfl _ ![0, 0, 0, 0, 1] rfl _ ![0, 0, 0, 0, 0] rfl _ a2 h2 a3 h3 a4 h4 x0 x1 xo _ rfl _ ?_
  refine stepB 0 0 0 0 rfl (by decide) (by decide) (by decide) ![0, 0, 0, 0, 0] rfl _ ![0, 0, 0, 0, 0] rfl _ ![0, 0, 0, 0, 0] rfl _ a2 h2 a3 h3 a4 h4 x0 x1 xo _ rfl _ ?_
  intro y hy
  exact absurd hy (Nat.not_lt_zero _)

/-- A BATCH'S FIRST CHANNEL: the body leaves every displacement's term, added to zero. -/
theorem out_A (c : Dev nD) (i : grid0.Coords) (a2 : Memref sig .tc .vmem S1x1x64x64x64 .f32) (h2 : a2.IsWhole)
    (a3 : Memref sig .tc .vmem S1x1x66x66x66 .f32) (h3 : a3.IsWhole) (a4 : Memref sig .tc .vmem S1x27x64x64x64 .f32) (h4 : a4.IsWhole)
    (hc0 : cond0_0 i) (x0 : Vec Ideal S1x1x64x64x64 .f32) (x1 : Vec Ideal S1x1x66x66x66 .f32) :
    out0_A_2 (F := Ideal) c i a2 h2 a3 h3 a4 h4 hc0 x0 x1 = upd x0 x1 zeroBlk := by
  unfold out0_A_2
  rw [View.read_writes_eq_canon _ _ _ (cover0_A_2 c i a2 h2 a3 h3 a4 h4 hc0 x0 x1)]
  funext y
  have key : ∀ y : S1x27x64x64x64.Idx, View.canon (kernelRun0_A (F := Ideal) c i a2 h2 a3 h3 a4 h4 hc0 x0 x1).1 y
      = if (y 1).val < 27 then upd x0 x1 zeroBlk y else Ideal.ofBits .f32 0x00000000#32 := by
    unfold kernelRun0_A
    dsimp only
    refine stepA 26 2 2 2 rfl (by decide) (by decide) (by decide) ![0, 26, 0, 0, 0] rfl _ ![0, 0, 2, 2, 2] rfl _ ![0, 0, 0, 0, 0] rfl _ a2 h2 a3 h3 a4 x0 x1 _ _ rfl ?_
    refine stepA 25 2 2 1 rfl (by decide) (by decide) (by decide) ![0, 25, 0, 0, 0] rfl _ ![0, 0, 2, 2, 1] rfl _ ![0, 0, 0, 0, 0] rfl _ a2 h2 a3 h3 a4 x0 x1 _ _ rfl ?_
    refine stepA 24 2 2 0 rfl (by decide) (by decide) (by decide) ![0, 24, 0, 0, 0] rfl _ ![0, 0, 2, 2, 0] rfl _ ![0, 0, 0, 0, 0] rfl _ a2 h2 a3 h3 a4 x0 x1 _ _ rfl ?_
    refine stepA 23 2 1 2 rfl (by decide) (by decide) (by decide) ![0, 23, 0, 0, 0] rfl _ ![0, 0, 2, 1, 2] rfl _ ![0, 0, 0, 0, 0] rfl _ a2 h2 a3 h3 a4 x0 x1 _ _ rfl ?_
    refine stepA 22 2 1 1 rfl (by decide) (by decide) (by decide) ![0, 22, 0, 0, 0] rfl _ ![0, 0, 2, 1, 1] rfl _ ![0, 0, 0, 0, 0] rfl _ a2 h2 a3 h3 a4 x0 x1 _ _ rfl ?_
    refine stepA 21 2 1 0 rfl (by decide) (by decide) (by decide) ![0, 21, 0, 0, 0] rfl _ ![0, 0, 2, 1, 0] rfl _ ![0, 0, 0, 0, 0] rfl _ a2 h2 a3 h3 a4 x0 x1 _ _ rfl ?_
    refine stepA 20 2 0 2 rfl (by decide) (by decide) (by decide) ![0, 20, 0, 0, 0] rfl _ ![0, 0, 2, 0, 2] rfl _ ![0, 0, 0, 0, 0] rfl _ a2 h2 a3 h3 a4 x0 x1 _ _ rfl ?_
    refine stepA 19 2 0 1 rfl (by decide) (by decide) (by decide) ![0, 19, 0, 0, 0] rfl _ ![0, 0, 2, 0, 1] rfl _ ![0, 0, 0, 0, 0] rfl _ a2 h2 a3 h3 a4 x0 x1 _ _ rfl ?_
    refine stepA 18 2 0 0 rfl (by decide) (by decide) (by decide) ![0, 18, 0, 0, 0] rfl _ ![0, 0, 2, 0, 0] rfl _ ![0, 0, 0, 0, 0] rfl _ a2 h2 a3 h3 a4 x0 x1 _ _ rfl ?_
    refine stepA 17 1 2 2 rfl (by decide) (by decide) (by decide) ![0, 17, 0, 0, 0] rfl _ ![0, 0, 1, 2, 2] rfl _ ![0, 0, 0, 0, 0] rfl _ a2 h2 a3 h3 a4 x0 x1 _ _ rfl ?_
    refine stepA 16 1 2 1 rfl (by decide) (by decide) (by decide) ![0, 16, 0, 0, 0] rfl _ ![0, 0, 1, 2, 1] rfl _ ![0, 0, 0, 0, 0] rfl _ a2 h2 a3 h3 a4 x0 x1 _ _ rfl ?_
    refine stepA 15 1 2 0 rfl (by decide) (by decide) (by decide) ![0, 15, 0, 0, 0] rfl _ ![0, 0, 1, 2, 0] rfl _ ![0, 0, 0, 0, 0] rfl _ a2 h2 a3 h3 a4 x0 x1 _ _ rfl ?_
    refine stepA 14 1 1 2 rfl (by decide) (by decide) (by decide) ![0, 14, 0, 0, 0] rfl _ ![0, 0, 1, 1, 2] rfl _ ![0, 0, 0, 0, 0] rfl _ a2 h2 a3 h3 a4 x0 x1 _ _ rfl ?_
    refine stepA 13 1 1 1 rfl (by decide) (by decide) (by decide) ![0, 13, 0, 0, 0] rfl _ ![0, 0, 1, 1, 1] rfl _ ![0, 0, 0, 0, 0] rfl _ a2 h2 a3 h3 a4 x0 x1 _ _ rfl ?_
    refine stepA 12 1 1 0 rfl (by decide) (by decide) (by decide) ![0, 12, 0, 0, 0] rfl _ ![0, 0, 1, 1, 0] rfl _ ![0, 0, 0, 0, 0] rfl _ a2 h2 a3 h3 a4 x0 x1 _ _ rfl ?_
    refine stepA 11 1 0 2 rfl (by decide) (by decide) (by decide) ![0, 11, 0, 0, 0] rfl _ ![0, 0, 1, 0, 2] rfl _ ![0, 0, 0, 0, 0] rfl _ a2 h2 a3 h3 a4 x0 x1 _ _ rfl ?_
    refine stepA 10 1 0 1 rfl (by decide) (by decide) (by decide) ![0, 10, 0, 0, 0] rfl _ ![0, 0, 1, 0, 1] rfl _ ![0, 0, 0, 0, 0] rfl _ a2 h2 a3 h3 a4 x0 x1 _ _ rfl ?_
    refine stepA 9 1 0 0 rfl (by decide) (by decide) (by decide) ![0, 9, 0, 0, 0] rfl _ ![0, 0, 1, 0, 0] rfl _ ![0, 0, 0, 0, 0] rfl _ a2 h2 a3 h3 a4 x0 x1 _ _ rfl ?_
    refine stepA 8 0 2 2 rfl (by decide) (by decide) (by decide) ![0, 8, 0, 0, 0] rfl _ ![0, 0, 0, 2, 2] rfl _ ![0, 0, 0, 0, 0] rfl _ a2 h2 a3 h3 a4 x0 x1 _ _ rfl ?_
    refine stepA 7 0 2 1 rfl (by decide) (by decide) (by decide) ![0, 7, 0, 0, 0] rfl _ ![0, 0, 0, 2, 1] rfl _ ![0, 0, 0, 0, 0] rfl _ a2 h2 a3 h3 a4 x0 x1 _ _ rfl ?_
    refine stepA 6 0 2 0 rfl (by decide) (by decide) (by decide) ![0, 6, 0, 0, 0] rfl _ ![0, 0, 0, 2, 0] rfl _ ![0, 0, 0, 0, 0] rfl _ a2 h2 a3 h3 a4 x0 x1 _ _ rfl ?_
    refine stepA 5 0 1 2 rfl (by decide) (by decide) (by decide) ![0, 5, 0, 0, 0] rfl _ ![0, 0, 0, 1, 2] rfl _ ![0, 0, 0, 0, 0] rfl _ a2 h2 a3 h3 a4 x0 x1 _ _ rfl ?_
    refine stepA 4 0 1 1 rfl (by decide) (by decide) (by decide) ![0, 4, 0, 0, 0] rfl _ ![0, 0, 0, 1, 1] rfl _ ![0, 0, 0, 0, 0] rfl _ a2 h2 a3 h3 a4 x0 x1 _ _ rfl ?_
    refine stepA 3 0 1 0 rfl (by decide) (by decide) (by decide) ![0, 3, 0, 0, 0] rfl _ ![0, 0, 0, 1, 0] rfl _ ![0, 0, 0, 0, 0] rfl _ a2 h2 a3 h3 a4 x0 x1 _ _ rfl ?_
    refine stepA 2 0 0 2 rfl (by decide) (by decide) (by decide) ![0, 2, 0, 0, 0] rfl _ ![0, 0, 0, 0, 2] rfl _ ![0, 0, 0, 0, 0] rfl _ a2 h2 a3 h3 a4 x0 x1 _ _ rfl ?_
    refine stepA 1 0 0 1 rfl (by decide) (by decide) (by decide) ![0, 1, 0, 0, 0] rfl _ ![0, 0, 0, 0, 1] rfl _ ![0, 0, 0, 0, 0] rfl _ a2 h2 a3 h3 a4 x0 x1 _ _ rfl ?_
    refine stepA 0 0 0 0 rfl (by decide) (by decide) (by decide) ![0, 0, 0, 0, 0] rfl _ ![0, 0, 0, 0, 0] rfl _ ![0, 0, 0, 0, 0] rfl _ a2 h2 a3 h3 a4 x0 x1 _ _ rfl ?_
    intro y
    rw [if_neg (Nat.not_lt_zero _)]
    exact congrFun (View.canon_unit_zero (Val := Elt Ideal) (S := S1x27x64x64x64) (e := .f32) hz _ (k0_pay2 (F := Ideal))) y
  have hy : (y 1).val < 27 := (y 1).isLt
  rw [key, if_pos hy]

end Cert.KernelIdeal.CorrBody

end
-- ==== Proof.CorrKernel.lean ====
/-
  The kernel's result array is the correlation volume.

  The grid has 128 points, point `t` being batch `t / 64`, channel `t % 64`. At point `t` the first window's block is channel
  `t % 64` of batch `t / 64` of the first argument, the second window's the same channel of the padded second argument, and the
  output window's block is the whole `[27, 64, 64, 64]` volume of batch `t / 64`, written back after the batch's last channel.

  By induction on the point, what the output's staging buffer holds after point `t` is, at `(o, d, h, w)`, the running sum
  over the channels `0 … t % 64` of batch `t / 64` of the products scaled by `2⁻⁶` (`outsAt_eq`): a batch's first channel
  starts it from zero, each later channel adds its term to what the previous one left. After channel 63 that is the
  correlation volume's entry, so the block written back is the batch's part of `corr`, and the two batches' blocks cover the array.
-/
import proofs.«137139_j36077725286488_2_alg».proof.Proof.Gen.KernelIdeal.Value
import proofs.«137139_j36077725286488_2_alg».proof.Proof.CorrBody
import proofs.«137139_j36077725286488_2_alg».proof.Proof.CorrSpec
import Idealize.ShloMosaic.Lib.Pipeline.Value
import Idealize.ShloMosaic.Lib.StableHlo.Run

noncomputable section

namespace Cert.KernelIdeal.CorrValue

open Cert.KernelIdeal Cert.KernelIdeal.Gen Cert.KernelIdeal.CorrBody Cert.Corr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The windows' blocks -/

/-- The printed index maps, decided over the 128 points: batch and channel for the two inputs, batch for the output. -/
theorem idx_facts : ∀ t : Fin cfg0.N,
    win0_0.index t (0 : Fin 5) = t.val / 64 ∧ win0_0.index t (1 : Fin 5) = t.val % 64 ∧ win0_0.index t (2 : Fin 5) = 0
      ∧ win0_0.index t (3 : Fin 5) = 0 ∧ win0_0.index t (4 : Fin 5) = 0
    ∧ win0_1.index t (0 : Fin 5) = t.val / 64 ∧ win0_1.index t (1 : Fin 5) = t.val % 64 ∧ win0_1.index t (2 : Fin 5) = 0
      ∧ win0_1.index t (3 : Fin 5) = 0 ∧ win0_1.index t (4 : Fin 5) = 0
    ∧ win0_2.index t (0 : Fin 5) = t.val / 64 ∧ win0_2.index t (1 : Fin 5) = 0 ∧ win0_2.index t (2 : Fin 5) = 0
      ∧ win0_2.index t (3 : Fin 5) = 0 ∧ win0_2.index t (4 : Fin 5) = 0 :=
  (by decide +kernel : ∀ t : Fin grid0.N, _)

theorem lt_N (t : Fin cfg0.N) : t.val < 128 := lt_of_lt_of_eq t.isLt (show cfg0.N = 128 from N_0)

/-- The first window's block at point `t` is channel `t % 64` of batch `t / 64` of the first argument. -/
theorem iblk0_apply (c : Dev nD) (t : Fin cfg0.N) (p q : Fin 1) (d h w : Fin 64) :
    (iblk m c 0 t : Vec Ideal S1x1x64x64x64 .f32) (ix5 p q d h w)
      = V m c main_arg0 (ix5 (⟨t.val / 64, by have := lt_N t; omega⟩ : Fin 2) (⟨t.val % 64, by omega⟩ : Fin 64) d h w) := by
  obtain ⟨e0, e1, e2, e3, e4, -⟩ := idx_facts t
  have hp : p.val = 0 := by have := p.isLt; omega
  have hq : q.val = 0 := by have := q.isLt; omega
  show V m c main_arg0 (((cfg0.win 0).blk t).view.emb (ix5 p q d h w)) = _
  refine congrArg (V m c main_arg0) (funext fun a => Fin.ext ?_)
  match a with
  | ⟨0, _⟩ => show win0_0.index t (0 : Fin 5) * 1 + 1 * p.val = t.val / 64; omega
  | ⟨1, _⟩ => show win0_0.index t (1 : Fin 5) * 1 + 1 * q.val = t.val % 64; omega
  | ⟨2, _⟩ => show win0_0.index t (2 : Fin 5) * 64 + 1 * d.val = d.val; omega
  | ⟨3, _⟩ => show win0_0.index t (3 : Fin 5) * 64 + 1 * h.val = h.val; omega
  | ⟨4, _⟩ => show win0_0.index t (4 : Fin 5) * 64 + 1 * w.val = w.val; omega

/-- The second window's block at point `t` is the same channel of the padded second argument. -/
theorem iblk1_apply (c : Dev nD) (t : Fin cfg0.N) (p q : Fin 1) (d h w : Fin 66) :
    (iblk m c 1 t : Vec Ideal S1x1x66x66x66 .f32) (ix5 p q d h w)
      = V m c main_v0 (ix5 (⟨t.val / 64, by have := lt_N t; omega⟩ : Fin 2) (⟨t.val % 64, by omega⟩ : Fin 64) d h w) := by
  obtain ⟨-, -, -, -, -, e0, e1, e2, e3, e4, -⟩ := idx_facts t
  have hp : p.val = 0 := by have := p.isLt; omega
  have hq : q.val = 0 := by have := q.isLt; omega
  show V m c main_v0 (((cfg0.win 1).blk t).view.emb (ix5 p q d h w)) = _
  refine congrArg (V m c main_v0) (funext fun a => Fin.ext ?_)
  match a with
  | ⟨0, _⟩ => show win0_1.index t (0 : Fin 5) * 1 + 1 * p.val = t.val / 64; omega
  | ⟨1, _⟩ => show win0_1.index t (1 : Fin 5) * 1 + 1 * q.val = t.val % 64; omega
  | ⟨2, _⟩ => show win0_1.index t (2 : Fin 5) * 66 + 1 * d.val = d.val; omega
  | ⟨3, _⟩ => show win0_1.index t (3 : Fin 5) * 66 + 1 * h.val = h.val; omega
  | ⟨4, _⟩ => show win0_1.index t (4 : Fin 5) * 66 + 1 * w.val = w.val; omega

/-- So displacement `o`'s term at point `t` is channel `t % 64`'s product of batch `t / 64`, scaled. -/
theorem term_iblk (c : Dev nD) (t : Fin cfg0.N) (o : Fin 27) (d h w : Fin 64) :
    term (iblk m c 0 t) (iblk m c 1 t) o d h w
      = prod (V m c main_arg0) (V m c main_v0) (⟨t.val / 64, by have := lt_N t; omega⟩ : Fin 2) o d h w
          (⟨t.val % 64, by omega⟩ : Fin 64) * cInv := by
  unfold term prod
  rw [iblk0_apply m c t, iblk1_apply m c t]

/-! ## What the staging buffer holds, point by point -/

/-- The running sum after point `n`, as a block. -/
def accBlk (c : Dev nD) (n : ℕ) (hn : n < 128) : S1x27x64x64x64.Idx → EReal := fun y =>
  runSum (seq64 (prod (V m c main_arg0) (V m c main_v0) (⟨n / 64, by omega⟩ : Fin 2) ⟨(y 1).val, (y 1).isLt⟩ ⟨(y 2).val, (y 2).isLt⟩
    ⟨(y 3).val, (y 3).isLt⟩ ⟨(y 4).val, (y 4).isLt⟩)) cInv (n % 64)

theorem hN : cfg0.N = 128 := N_0

/-- `upd` over the blocks of point `t`, at an entry. -/
theorem upd_iblk (c : Dev nD) (t : Fin cfg0.N) (A : S1x27x64x64x64.Idx → EReal) (y : S1x27x64x64x64.Idx) :
    upd (iblk m c 0 t) (iblk m c 1 t) A y
      = A y + seq64 (prod (V m c main_arg0) (V m c main_v0) (⟨t.val / 64, by have := lt_N t; omega⟩ : Fin 2) ⟨(y 1).val, (y 1).isLt⟩
          ⟨(y 2).val, (y 2).isLt⟩ ⟨(y 3).val, (y 3).isLt⟩ ⟨(y 4).val, (y 4).isLt⟩) (t.val % 64) * cInv := by
  unfold upd
  rw [term_iblk m c t, seq64_of_lt _ _ (by omega)]

/-- THE INDUCTION: after point `n` the output's staging buffer holds the running sum. -/
theorem outsAt_eq (c : Dev nD) : ∀ (n : ℕ) (h : n < cfg0.N), outsAt0 m c n h = accBlk m c n (lt_of_lt_of_eq h hN)
  | 0, h => by
    rw [outsAt0_A m c ⟨0, h⟩ rfl, out_A]
    funext y
    rw [upd_iblk m c ⟨0, h⟩ zeroBlk y]
    show Ideal.ofBits .f32 0x00000000#32 + _ = runSum _ cInv 0
    rw [runSum_zero, Ideal.ofBits_zero_f32]
    rfl
  | n + 1, h => by
    have h128 : n + 1 < 128 := lt_of_lt_of_eq h hN
    by_cases h0 : (n + 1) % 64 = 0
    · rw [outsAt0_A m c ⟨n + 1, h⟩ h0, out_A]
      funext y
      rw [upd_iblk m c ⟨n + 1, h⟩ zeroBlk y]
      show Ideal.ofBits .f32 0x00000000#32 + seq64 _ ((n + 1) % 64) * cInv = runSum _ cInv ((n + 1) % 64)
      rw [h0, runSum_zero, Ideal.ofBits_zero_f32]
    · rw [outsAt0_B m c ⟨n + 1, h⟩ h0, out_B]
      funext y
      rw [upd_iblk m c ⟨n + 1, h⟩ _ y]
      show outsAt0 m c n _ y + seq64 _ ((n + 1) % 64) * cInv = runSum _ cInv ((n + 1) % 64)
      rw [outsAt_eq c n (Nat.lt_of_succ_lt h)]
      have e1 : (n + 1) % 64 = n % 64 + 1 := by omega
      have e2 : (n + 1) / 64 = n / 64 := by omega
      unfold accBlk
      rw [e1, runSum_succ]
      simp only [e2]

/-! ## The array after the run -/

/-- The result array: the correlation volume of the two arrays as the region finds them. -/
abbrev result (c : Dev nD) : S2x27x64x64x64.Idx → EReal := corr (V m c main_arg0) (V m c main_v0)

theorem prod_congr (x : SArg.Idx → EReal) (xp : SPad.Idx → EReal) {b b' : Fin 2} {o o' : Fin 27} {d d' h h' w w' : Fin 64}
    (hb : b = b') (ho : o = o') (hd : d = d') (hh : h = h') (hw : w = w') :
    prod x xp b o d h w = prod x xp b' o' d' h' w' := by
  subst hb ho hd hh hw; rfl

/-- WHAT A BATCH'S LAST CHANNEL WRITES BACK is the batch's block of the correlation volume. -/
theorem flushed_eq (c : Dev nD) (t : Fin cfg0.N) (hf : (cfg0.win 2).flush t = true) :
    (dats m 0 c).flushed 2 t = ((cfg0.win 2).blk t).view.read (Elt Ideal) (result m c) := by
  have h63 : t.val % 64 = 63 := (flush0_2 t).mp hf
  obtain ⟨-, -, -, -, -, -, -, -, -, -, e0, e1, e2, e3, e4⟩ := idx_facts t
  rw [Value.flushed2, outsAt_eq]
  funext j
  show accBlk m c t.val _ j = corr (V m c main_arg0) (V m c main_v0) (((cfg0.win 2).blk t).view.emb j)
  unfold accBlk corr
  rw [h63]
  have hj : (j 0).val < 1 := (j 0).isLt
  refine congrArg (fun f => runSum (seq64 f) cInv 63)
    (prod_congr _ _ (Fin.ext ?_) (Fin.ext ?_) (Fin.ext ?_) (Fin.ext ?_) (Fin.ext ?_))
  · show t.val / 64 = win0_2.index t (0 : Fin 5) * 1 + 1 * (j 0).val; omega
  · show (j 1).val = win0_2.index t (1 : Fin 5) * 27 + 1 * (j 1).val; omega
  · show (j 2).val = win0_2.index t (2 : Fin 5) * 64 + 1 * (j 2).val; omega
  · show (j 3).val = win0_2.index t (3 : Fin 5) * 64 + 1 * (j 3).val; omega
  · show (j 4).val = win0_2.index t (4 : Fin 5) * 64 + 1 * (j 4).val; omega

/-- The two batches' blocks cover the array, so it ends holding the correlation volume. -/
theorem final (c : Dev nD) : (dats m 0 c).arrAt 2 cfg0.N = result m c :=
  (dats m 0 c).arrAt_eq_of_cover 2 (result m c) (flushed_eq m c) fun i => by
    have hi0 : (i 0).val < 2 := (i 0).isLt
    have hi1 : (i 1).val < 27 := (i 1).isLt
    have hi2 : (i 2).val < 64 := (i 2).isLt
    have hi3 : (i 3).val < 64 := (i 3).isLt
    have hi4 : (i 4).val < 64 := (i 4).isLt
    have ht : (i 0).val * 64 + 63 < cfg0.N := by rw [hN]; omega
    refine ⟨⟨(i 0).val * 64 + 63, ht⟩, (flush0_2 _).mpr (by show ((i 0).val * 64 + 63) % 64 = 63; omega), ?_⟩
    obtain ⟨-, -, -, -, -, -, -, -, -, -, e0, e1, e2, e3, e4⟩ := idx_facts ⟨(i 0).val * 64 + 63, ht⟩
    have hv : (⟨(i 0).val * 64 + 63, ht⟩ : Fin cfg0.N).val = (i 0).val * 64 + 63 := rfl
    rw [hv] at e0
    show i ∈ ((View.whole main_v1).slice (win0_2.rect ⟨(i 0).val * 64 + 63, ht⟩)).set
    rw [View.set_slice_whole, Rect.mem_set_unit]
    intro a
    match a with
    | ⟨0, _⟩ => show win0_2.index ⟨(i 0).val * 64 + 63, ht⟩ (0 : Fin 5) * 1 ≤ (i 0).val
        ∧ (i 0).val < win0_2.index ⟨(i 0).val * 64 + 63, ht⟩ (0 : Fin 5) * 1 + 1; omega
    | ⟨1, _⟩ => show win0_2.index ⟨(i 0).val * 64 + 63, ht⟩ (1 : Fin 5) * 27 ≤ (i 1).val
        ∧ (i 1).val < win0_2.index ⟨(i 0).val * 64 + 63, ht⟩ (1 : Fin 5) * 27 + 27; omega
    | ⟨2, _⟩ => show win0_2.index ⟨(i 0).val * 64 + 63, ht⟩ (2 : Fin 5) * 64 ≤ (i 2).val
        ∧ (i 2).val < win0_2.index ⟨(i 0).val * 64 + 63, ht⟩ (2 : Fin 5) * 64 + 64; omega
    | ⟨3, _⟩ => show win0_2.index ⟨(i 0).val * 64 + 63, ht⟩ (3 : Fin 5) * 64 ≤ (i 3).val
        ∧ (i 3).val < win0_2.index ⟨(i 0).val * 64 + 63, ht⟩ (3 : Fin 5) * 64 + 64; omega
    | ⟨4, _⟩ => show win0_2.index ⟨(i 0).val * 64 + 63, ht⟩ (4 : Fin 5) * 64 ≤ (i 4).val
        ∧ (i 4).val < win0_2.index ⟨(i 0).val * 64 + 63, ht⟩ (4 : Fin 5) * 64 + 64; omega

/-- The region finds the padded second argument where @main's host operations put it. -/
theorem V_main_v0 (c : Dev nD) : (V m c main_v0 : S2x64x66x66x66.Idx → EReal)
    = pad S2x64x66x66x66 ![0, 0, 1, 1, 1] ![0, 0, 1, 1, 1] ![0, 0, 0, 0, 0] (m ((c : Thread nD τ).loc main_arg1))
        (sitofp .f32 (constantI S_ 32 0#32) : FVec Ideal S_ .f32) pads_S2x64x64x64x64_S2x64x66x66x66_000_000_110_110_110 h_S_ := by
  dsimp only [V]
  simp only [hostOps0, hostOps0_1, List.flatten_cons, List.flatten_nil, List.append_nil, List.cons_append, List.nil_append]
  after_results
  rfl

/-- The correlation volume of the launch contents of the two arguments (the second one padded). -/
abbrev value (c : Dev nD) : S2x27x64x64x64.Idx → EReal :=
  corr (m ((c : Thread nD τ).loc main_arg0))
    (pad S2x64x66x66x66 ![0, 0, 1, 1, 1] ![0, 0, 1, 1, 1] ![0, 0, 0, 0, 0] (m ((c : Thread nD τ).loc main_arg1))
      (sitofp .f32 (constantI S_ 32 0#32) : FVec Ideal S_ .f32) pads_S2x64x64x64x64_S2x64x66x66x66_000_000_110_110_110 h_S_)

theorem result_eq (c : Dev nD) : result m c = value m c := by
  unfold result value
  rw [V_main_v0 m c, V_main_arg0 m c]

/-- THE RUN, READ: every weakly fair execution terminates with the result array at the correlation volume of the arguments'
    launch contents and the arguments unchanged. -/
theorem run : θ_run defs (onTc (τ := τ) (main (F := Ideal))) ⟨m, fun _ => 0, ρ⟩ fun r => ∀ c : Dev nD,
      r.2.mem ((c : Thread nD τ).loc main_v1) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (result_eq m c)), (h c).2⟩)
    (Value.run_blocks m ρ)

end Cert.KernelIdeal.CorrValue

end
-- ==== Proof.CorrMean.lean ====
/-
  One displacement's mean over the channels, as the reference's host operations compute it, read at an entry.

  For a displacement `(dx, dy, dz)` the reference slices the padded array `xp` at offsets `(0, 0, dx, dy, dz)` down to the
  shape of `x`, multiplies by `x` entry by entry, sums over the channel axis from zero, re-inserts that axis with extent
  one, and divides by a broadcast `64`. At the entry `(b, 0, d, h, w)` of the result this is zero plus the sum over the 64
  channels `k` of `x[b, k, d, h, w] · xp[b, k, dx + d, dy + h, dz + w]`, divided by `64`: each layout operation reads one entry
  of its operand, and the channel sum is the extended reals' sum.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Corr

open Idealize.ShloMosaic Idealize.ShloMosaic.ValueIdx

abbrev HArg : Shape := ⟨5, ![2, 64, 64, 64, 64]⟩
abbrev HPad : Shape := ⟨5, ![2, 64, 66, 66, 66]⟩
abbrev HSum : Shape := ⟨4, ![2, 64, 64, 64]⟩
abbrev HOne : Shape := ⟨5, ![2, 1, 64, 64, 64]⟩
abbrev HNil : Shape := ⟨0, ![]⟩

/-- The reference's operations for one displacement. -/
def meanStage (off : Fin 5 → ℕ) (hs : HPad.Slices off HArg) (hrt : HArg.ReducesTo [1] HSum) (hS : 0 < HNil.numel)
    (hb : HSum.BroadcastsInDim HOne ![0, 2, 3, 4]) (hb0 : HNil.BroadcastsInDim HOne ![])
    (x : FVec Ideal HArg .f32) (xp : FVec Ideal HPad .f32) : FVec Ideal HOne .f32 :=
  Host.divf (F := Ideal)
    (broadcastInDim HOne ![0, 2, 3, 4] hb
      (Host.reduceAdd (F := Ideal) (mulf x (extractStridedSlice HArg off xp hs)) (constant (F := Ideal) HNil .f32 0x00000000#32) hrt hS))
    (broadcastInDim HOne ![] hb0 (constant (F := Ideal) HNil .f32 0x42800000#32))

/-- … read at an entry. -/
theorem meanStage_apply (dx dy dz : ℕ) (hdx : dx ≤ 2) (hdy : dy ≤ 2) (hdz : dz ≤ 2)
    (off : Fin 5 → ℕ) (hoff : off = ![0, 0, dx, dy, dz])
    (hs : HPad.Slices off HArg) (hrt : HArg.ReducesTo [1] HSum) (hS : 0 < HNil.numel)
    (hb : HSum.BroadcastsInDim HOne ![0, 2, 3, 4]) (hb0 : HNil.BroadcastsInDim HOne ![])
    (x : FVec Ideal HArg .f32) (xp : FVec Ideal HPad .f32) (b : Fin 2) (d h w : Fin 64) :
    meanStage off hs hrt hS hb hb0 x xp (ix5 b (0 : Fin 1) d h w)
      = Ideal.div (Ideal.ofBits .f32 0x00000000#32 + ∑ k : Fin 64,
          x (ix5 b k d h w) * xp (ix5 b k (⟨dx + d.val, by omega⟩ : Fin 66) (⟨dy + h.val, by omega⟩ : Fin 66) (⟨dz + w.val, by omega⟩ : Fin 66)))
        (Ideal.ofBits .f32 0x42800000#32) := by
  subst hoff
  unfold meanStage
  refine (congrArg₂ Ideal.div
    (broadcastInDim_apply _ hb _ (ix5 b (0 : Fin 1) d h w) (ix4 b d h w) (fun a => match a with
      | ⟨0, _⟩ => by show b.val = if (2 : Nat) = 1 then 0 else b.val; rw [if_neg (by decide)]
      | ⟨1, _⟩ => by show d.val = if (64 : Nat) = 1 then 0 else d.val; rw [if_neg (by decide)]
      | ⟨2, _⟩ => by show h.val = if (64 : Nat) = 1 then 0 else h.val; rw [if_neg (by decide)]
      | ⟨3, _⟩ => by show w.val = if (64 : Nat) = 1 then 0 else w.val; rw [if_neg (by decide)]))
    (broadcastInDim_apply _ hb0 _ (ix5 b (0 : Fin 1) d h w) ix0 (fun a => a.elim0))).trans ?_
  refine congrArg₂ Ideal.div ?_ rfl
  simp only [Host.reduceAdd, Ideal.hostReduceAdd_def]
  rw [Ideal.hostReduceAdd_single hrt (by decide)]
  refine congrArg₂ (· + ·) rfl ?_
  show ∑ k : Fin 64, _ = _
  refine Finset.sum_congr rfl fun k _ => ?_
  rw [mulf_apply]
  refine congrArg₂ (· * ·) (congrArg x ?_) ?_
  · funext a
    exact Fin.ext (by match a with | ⟨0, _⟩ => rfl | ⟨1, _⟩ => rfl | ⟨2, _⟩ => rfl | ⟨3, _⟩ => rfl | ⟨4, _⟩ => rfl)
  · refine extractStridedSlice_apply _ xp hs _ _ fun a => ?_
    match a with
    | ⟨0, _⟩ => show b.val = 0 + b.val; omega
    | ⟨1, _⟩ => show k.val = 0 + k.val; omega
    | ⟨2, _⟩ => rfl
    | ⟨3, _⟩ => rfl
    | ⟨4, _⟩ => rfl

end Cert.Corr

end
-- ==== Proof.CorrReference.lean ====
/-
  The reference's result array is the correlation volume.

  The reference computes, for each of the 27 displacements in turn, the mean over the channels of `x · shifted(xp)` as a
  `[2, 1, 64, 64, 64]` array, and joins the 27 arrays along the second axis (the first 16, the last 11, then the two halves). So
  entry `(b, o, d, h, w)` of the result is entry `(b, 0, d, h, w)` of displacement `o`'s array (the joins place it), which is the
  mean of the 64 products (Proof/CorrMean.lean), which is the running sum of the products each scaled by `2⁻⁶` (the law of
  Proof/CorrSpec.lean): the correlation volume's entry. The padded array `xp` is never opened.
-/
import proofs.«137139_j36077725286488_2_alg».proof.Proof.ReferenceRead
import proofs.«137139_j36077725286488_2_alg».proof.Proof.CorrSpec
import proofs.«137139_j36077725286488_2_alg».proof.Proof.CorrMean
import Idealize.ShloMosaic.Lib.Pipeline.Value

noncomputable section

namespace Cert.ReferenceIdeal.CorrRef

open Cert.ReferenceIdeal Cert.ReferenceIdeal.ReadP Cert.Corr
open Idealize.ShloMosaic Idealize.ShloMosaic.ValueIdx

/-- Displacement `o`'s mean array at `(b, 0, d, h, w)` is the correlation volume at `(b, o, d, h, w)`. -/
theorem stage_entry (o : Fin 27) (dx dy dz : ℕ) (ho : o.val = 9 * dx + 3 * dy + dz) (hdx : dx ≤ 2) (hdy : dy ≤ 2) (hdz : dz ≤ 2)
    (off : Fin 5 → ℕ) (hoff : off = ![0, 0, dx, dy, dz])
    (hs : HPad.Slices off HArg) (hrt : HArg.ReducesTo [1] HSum) (hS : 0 < HNil.numel)
    (hb : HSum.BroadcastsInDim HOne ![0, 2, 3, 4]) (hb0 : HNil.BroadcastsInDim HOne ![])
    (x : FVec Ideal HArg .f32) (xp : FVec Ideal HPad .f32) (b : Fin 2) (d h w : Fin 64) :
    meanStage off hs hrt hS hb hb0 x xp (ix5 b (0 : Fin 1) d h w) = corr x xp (ix5 b o d h w) := by
  rw [meanStage_apply dx dy dz hdx hdy hdz off hoff hs hrt hS hb hb0 x xp b d h w]
  refine (mean_eq_runSum (fun k : Fin 64 => x (ix5 b k d h w)
    * xp (ix5 b k (⟨dx + d.val, by omega⟩ : Fin 66) (⟨dy + h.val, by omega⟩ : Fin 66) (⟨dz + w.val, by omega⟩ : Fin 66)))).trans ?_
  show runSum (seq64 _) _ 63 = runSum (seq64 (prod x xp b o d h w)) _ 63
  refine congrArg (fun f => runSum (seq64 f) _ 63) (funext fun k => ?_)
  unfold prod
  refine congrArg (fun q => x (ix5 b k d h w) * xp q) (funext fun a => Fin.ext ?_)
  match a with
  | ⟨0, _⟩ => rfl
  | ⟨1, _⟩ => rfl
  | ⟨2, _⟩ => show dx + d.val = o.val / 9 + d.val; omega
  | ⟨3, _⟩ => show dy + h.val = o.val / 3 % 3 + h.val; omega
  | ⟨4, _⟩ => show dz + w.val = o.val % 3 + w.val; omega

/- Displacement `K < 16`: the entry is in the first half of the last join, piece `K` of the 16-piece join. -/
set_option hygiene false in
local macro "corr_left" K:num v:ident dx:num dy:num dz:num : tactic => `(tactic| (
  refine (concatenate_pair_apply_left (t := S2x27x64x64x64) (s₁ := S2x16x64x64x64) (s₂ := S2x11x64x64x64) (1 : Fin 5) _ _ _ _ rfl (ix5 b (⟨$K, by decide⟩ : Fin 16) d h w)
    (fun a => by match a with | ⟨0, _⟩ => rfl | ⟨1, _⟩ => rfl | ⟨2, _⟩ => rfl | ⟨3, _⟩ => rfl | ⟨4, _⟩ => rfl)).trans ?_
  unfold val_main_v163
  refine (concatenate_apply_piece (t := S2x16x64x64x64) (1 : Fin 5) _ _ _ $K (by show ($K : ℕ) < 16; omega) S2x1x64x64x64 ($v (F := Ideal) x0 x1) rfl rfl $K (by rfl)
    (ix5 b (0 : Fin 1) d h w)
    (fun a ha => by match a with | ⟨0, _⟩ => rfl | ⟨1, _⟩ => exact absurd rfl ha | ⟨2, _⟩ => rfl | ⟨3, _⟩ => rfl | ⟨4, _⟩ => rfl)
    (by rfl)).trans ?_
  exact stage_entry ⟨$K, by decide⟩ $dx $dy $dz rfl (by decide) (by decide) (by decide) _ rfl _ _ _ _ _ x0 (val_main_v0 (F := Ideal) x1) b d h w))

/- Displacement `K ≥ 16`: the entry is in the second half, piece `K - 16` of the 11-piece join. -/
set_option hygiene false in
local macro "corr_right" K:num J:num v:ident dx:num dy:num dz:num : tactic => `(tactic| (
  refine (concatenate_pair_apply_right (t := S2x27x64x64x64) (s₁ := S2x16x64x64x64) (s₂ := S2x11x64x64x64) (1 : Fin 5) _ _ _ _ rfl rfl (ix5 b (⟨$J, by decide⟩ : Fin 11) d h w)
    (fun a ha => by match a with | ⟨0, _⟩ => rfl | ⟨1, _⟩ => exact absurd rfl ha | ⟨2, _⟩ => rfl | ⟨3, _⟩ => rfl | ⟨4, _⟩ => rfl)
    (by rfl)).trans ?_
  unfold val_main_v164
  refine (concatenate_apply_piece (t := S2x11x64x64x64) (1 : Fin 5) _ _ _ $J (by show ($J : ℕ) < 11; omega) S2x1x64x64x64 ($v (F := Ideal) x0 x1) rfl rfl $J (by rfl)
    (ix5 b (0 : Fin 1) d h w)
    (fun a ha => by match a with | ⟨0, _⟩ => rfl | ⟨1, _⟩ => exact absurd rfl ha | ⟨2, _⟩ => rfl | ⟨3, _⟩ => rfl | ⟨4, _⟩ => rfl)
    (by rfl)).trans ?_
  exact stage_entry ⟨$K, by decide⟩ $dx $dy $dz rfl (by decide) (by decide) (by decide) _ rfl _ _ _ _ _ x0 (val_main_v0 (F := Ideal) x1) b d h w))

/-! ## Displacement by displacement: the result's entry `(b, o, d, h, w)` is the correlation volume's -/

theorem entry_0 (x0 x1 : (⟨S2x64x64x64x64, .f32⟩ : BufTy).Contents (Elt Ideal)) (b : Fin 2) (d h w : Fin 64) :
    val_main_v165 (F := Ideal) x0 x1 (ix5 b (⟨0, by decide⟩ : Fin 27) d h w)
      = corr x0 (val_main_v0 (F := Ideal) x1) (ix5 b (⟨0, by decide⟩ : Fin 27) d h w) := by
  unfold val_main_v165
  corr_left 0 val_main_v6 0 0 0

theorem entry_1 (x0 x1 : (⟨S2x64x64x64x64, .f32⟩ : BufTy).Contents (Elt Ideal)) (b : Fin 2) (d h w : Fin 64) :
    val_main_v165 (F := Ideal) x0 x1 (ix5 b (⟨1, by decide⟩ : Fin 27) d h w)
      = corr x0 (val_main_v0 (F := Ideal) x1) (ix5 b (⟨1, by decide⟩ : Fin 27) d h w) := by
  unfold val_main_v165
  corr_left 1 val_main_v12 0 0 1

theorem entry_2 (x0 x1 : (⟨S2x64x64x64x64, .f32⟩ : BufTy).Contents (Elt Ideal)) (b : Fin 2) (d h w : Fin 64) :
    val_main_v165 (F := Ideal) x0 x1 (ix5 b (⟨2, by decide⟩ : Fin 27) d h w)
      = corr x0 (val_main_v0 (F := Ideal) x1) (ix5 b (⟨2, by decide⟩ : Fin 27) d h w) := by
  unfold val_main_v165
  corr_left 2 val_main_v18 0 0 2

theorem entry_3 (x0 x1 : (⟨S2x64x64x64x64, .f32⟩ : BufTy).Contents (Elt Ideal)) (b : Fin 2) (d h w : Fin 64) :
    val_main_v165 (F := Ideal) x0 x1 (ix5 b (⟨3, by decide⟩ : Fin 27) d h w)
      = corr x0 (val_main_v0 (F := Ideal) x1) (ix5 b (⟨3, by decide⟩ : Fin 27) d h w) := by
  unfold val_main_v165
  corr_left 3 val_main_v24 0 1 0

theorem entry_4 (x0 x1 : (⟨S2x64x64x64x64, .f32⟩ : BufTy).Contents (Elt Ideal)) (b : Fin 2) (d h w : Fin 64) :
    val_main_v165 (F := Ideal) x0 x1 (ix5 b (⟨4, by decide⟩ : Fin 27) d h w)
      = corr x0 (val_main_v0 (F := Ideal) x1) (ix5 b (⟨4, by decide⟩ : Fin 27) d h w) := by
  unfold val_main_v165
  corr_left 4 val_main_v30 0 1 1

theorem entry_5 (x0 x1 : (⟨S2x64x64x64x64, .f32⟩ : BufTy).Contents (Elt Ideal)) (b : Fin 2) (d h w : Fin 64) :
    val_main_v165 (F := Ideal) x0 x1 (ix5 b (⟨5, by decide⟩ : Fin 27) d h w)
      = corr x0 (val_main_v0 (F := Ideal) x1) (ix5 b (⟨5, by decide⟩ : Fin 27) d h w) := by
  unfold val_main_v165
  corr_left 5 val_main_v36 0 1 2

theorem entry_6 (x0 x1 : (⟨S2x64x64x64x64, .f32⟩ : BufTy).Contents (Elt Ideal)) (b : Fin 2) (d h w : Fin 64) :
    val_main_v165 (F := Ideal) x0 x1 (ix5 b (⟨6, by decide⟩ : Fin 27) d h w)
      = corr x0 (val_main_v0 (F := Ideal) x1) (ix5 b (⟨6, by decide⟩ : Fin 27) d h w) := by
  unfold val_main_v165
  corr_left 6 val_main_v42 0 2 0

theorem entry_7 (x0 x1 : (⟨S2x64x64x64x64, .f32⟩ : BufTy).Contents (Elt Ideal)) (b : Fin 2) (d h w : Fin 64) :
    val_main_v165 (F := Ideal) x0 x1 (ix5 b (⟨7, by decide⟩ : Fin 27) d h w)
      = corr x0 (val_main_v0 (F := Ideal) x1) (ix5 b (⟨7, by decide⟩ : Fin 27) d h w) := by
  unfold val_main_v165
  corr_left 7 val_main_v48 0 2 1

theorem entry_8 (x0 x1 : (⟨S2x64x64x64x64, .f32⟩ : BufTy).Contents (Elt Ideal)) (b : Fin 2) (d h w : Fin 64) :
    val_main_v165 (F := Ideal) x0 x1 (ix5 b (⟨8, by decide⟩ : Fin 27) d h w)
      = corr x0 (val_main_v0 (F := Ideal) x1) (ix5 b (⟨8, by decide⟩ : Fin 27) d h w) := by
  unfold val_main_v165
  corr_left 8 val_main_v54 0 2 2

theorem entry_9 (x0 x1 : (⟨S2x64x64x64x64, .f32⟩ : BufTy).Contents (Elt Ideal)) (b : Fin 2) (d h w : Fin 64) :
    val_main_v165 (F := Ideal) x0 x1 (ix5 b (⟨9, by decide⟩ : Fin 27) d h w)
      = corr x0 (val_main_v0 (F := Ideal) x1) (ix5 b (⟨9, by decide⟩ : Fin 27) d h w) := by
  unfold val_main_v165
  corr_left 9 val_main_v60 1 0 0

theorem entry_10 (x0 x1 : (⟨S2x64x64x64x64, .f32⟩ : BufTy).Contents (Elt Ideal)) (b : Fin 2) (d h w : Fin 64) :
    val_main_v165 (F := Ideal) x0 x1 (ix5 b (⟨10, by decide⟩ : Fin 27) d h w)
      = corr x0 (val_main_v0 (F := Ideal) x1) (ix5 b (⟨10, by decide⟩ : Fin 27) d h w) := by
  unfold val_main_v165
  corr_left 10 val_main_v66 1 0 1

theorem entry_11 (x0 x1 : (⟨S2x64x64x64x64, .f32⟩ : BufTy).Contents (Elt Ideal)) (b : Fin 2) (d h w : Fin 64) :
    val_main_v165 (F := Ideal) x0 x1 (ix5 b (⟨11, by decide⟩ : Fin 27) d h w)
      = corr x0 (val_main_v0 (F := Ideal) x1) (ix5 b (⟨11, by decide⟩ : Fin 27) d h w) := by
  unfold val_main_v165
  corr_left 11 val_main_v72 1 0 2

theorem entry_12 (x0 x1 : (⟨S2x64x64x64x64, .f32⟩ : BufTy).Contents (Elt Ideal)) (b : Fin 2) (d h w : Fin 64) :
    val_main_v165 (F := Ideal) x0 x1 (ix5 b (⟨12, by decide⟩ : Fin 27) d h w)
      = corr x0 (val_main_v0 (F := Ideal) x1) (ix5 b (⟨12, by decide⟩ : Fin 27) d h w) := by
  unfold val_main_v165
  corr_left 12 val_main_v78 1 1 0

set_option maxHeartbeats 1000000 in  -- piece 13 of 16: locating it walks the 13 pieces before it
theorem entry_13 (x0 x1 : (⟨S2x64x64x64x64, .f32⟩ : BufTy).Contents (Elt Ideal)) (b : Fin 2) (d h w : Fin 64) :
    val_main_v165 (F := Ideal) x0 x1 (ix5 b (⟨13, by decide⟩ : Fin 27) d h w)
      = corr x0 (val_main_v0 (F := Ideal) x1) (ix5 b (⟨13, by decide⟩ : Fin 27) d h w) := by
  unfold val_main_v165
  corr_left 13 val_main_v84 1 1 1

set_option maxHeartbeats 1000000 in  -- piece 14 of 16: locating it walks the 14 pieces before it
theorem entry_14 (x0 x1 : (⟨S2x64x64x64x64, .f32⟩ : BufTy).Contents (Elt Ideal)) (b : Fin 2) (d h w : Fin 64) :
    val_main_v165 (F := Ideal) x0 x1 (ix5 b (⟨14, by decide⟩ : Fin 27) d h w)
      = corr x0 (val_main_v0 (F := Ideal) x1) (ix5 b (⟨14, by decide⟩ : Fin 27) d h w) := by
  unfold val_main_v165
  corr_left 14 val_main_v90 1 1 2

set_option maxHeartbeats 1000000 in  -- piece 15 of 16: locating it walks the 15 pieces before it
theorem entry_15 (x0 x1 : (⟨S2x64x64x64x64, .f32⟩ : BufTy).Contents (Elt Ideal)) (b : Fin 2) (d h w : Fin 64) :
    val_main_v165 (F := Ideal) x0 x1 (ix5 b (⟨15, by decide⟩ : Fin 27) d h w)
      = corr x0 (val_main_v0 (F := Ideal) x1) (ix5 b (⟨15, by decide⟩ : Fin 27) d h w) := by
  unfold val_main_v165
  corr_left 15 val_main_v96 1 2 0

theorem entry_16 (x0 x1 : (⟨S2x64x64x64x64, .f32⟩ : BufTy).Contents (Elt Ideal)) (b : Fin 2) (d h w : Fin 64) :
    val_main_v165 (F := Ideal) x0 x1 (ix5 b (⟨16, by decide⟩ : Fin 27) d h w)
      = corr x0 (val_main_v0 (F := Ideal) x1) (ix5 b (⟨16, by decide⟩ : Fin 27) d h w) := by
  unfold val_main_v165
  corr_right 16 0 val_main_v102 1 2 1

theorem entry_17 (x0 x1 : (⟨S2x64x64x64x64, .f32⟩ : BufTy).Contents (Elt Ideal)) (b : Fin 2) (d h w : Fin 64) :
    val_main_v165 (F := Ideal) x0 x1 (ix5 b (⟨17, by decide⟩ : Fin 27) d h w)
      = corr x0 (val_main_v0 (F := Ideal) x1) (ix5 b (⟨17, by decide⟩ : Fin 27) d h w) := by
  unfold val_main_v165
  corr_right 17 1 val_main_v108 1 2 2

theorem entry_18 (x0 x1 : (⟨S2x64x64x64x64, .f32⟩ : BufTy).Contents (Elt Ideal)) (b : Fin 2) (d h w : Fin 64) :
    val_main_v165 (F := Ideal) x0 x1 (ix5 b (⟨18, by decide⟩ : Fin 27) d h w)
      = corr x0 (val_main_v0 (F := Ideal) x1) (ix5 b (⟨18, by decide⟩ : Fin 27) d h w) := by
  unfold val_main_v165
  corr_right 18 2 val_main_v114 2 0 0

theorem entry_19 (x0 x1 : (⟨S2x64x64x64x64, .f32⟩ : BufTy).Contents (Elt Ideal)) (b : Fin 2) (d h w : Fin 64) :
    val_main_v165 (F := Ideal) x0 x1 (ix5 b (⟨19, by decide⟩ : Fin 27) d h w)
      = corr x0 (val_main_v0 (F := Ideal) x1) (ix5 b (⟨19, by decide⟩ : Fin 27) d h w) := by
  unfold val_main_v165
  corr_right 19 3 val_main_v120 2 0 1

theorem entry_20 (x0 x1 : (⟨S2x64x64x64x64, .f32⟩ : BufTy).Contents (Elt Ideal)) (b : Fin 2) (d h w : Fin 64) :
    val_main_v165 (F := Ideal) x0 x1 (ix5 b (⟨20, by decide⟩ : Fin 27) d h w)
      = corr x0 (val_main_v0 (F := Ideal) x1) (ix5 b (⟨20, by decide⟩ : Fin 27) d h w) := by
  unfold val_main_v165
  corr_right 20 4 val_main_v126 2 0 2

theorem entry_21 (x0 x1 : (⟨S2x64x64x64x64, .f32⟩ : BufTy).Contents (Elt Ideal)) (b : Fin 2) (d h w : Fin 64) :
    val_main_v165 (F := Ideal) x0 x1 (ix5 b (⟨21, by decide⟩ : Fin 27) d h w)
      = corr x0 (val_main_v0 (F := Ideal) x1) (ix5 b (⟨21, by decide⟩ : Fin 27) d h w) := by
  unfold val_main_v165
  corr_right 21 5 val_main_v132 2 1 0

theorem entry_22 (x0 x1 : (⟨S2x64x64x64x64, .f32⟩ : BufTy).Contents (Elt Ideal)) (b : Fin 2) (d h w : Fin 64) :
    val_main_v165 (F := Ideal) x0 x1 (ix5 b (⟨22, by decide⟩ : Fin 27) d h w)
      = corr x0 (val_main_v0 (F := Ideal) x1) (ix5 b (⟨22, by decide⟩ : Fin 27) d h w) := by
  unfold val_main_v165
  corr_right 22 6 val_main_v138 2 1 1

theorem entry_23 (x0 x1 : (⟨S2x64x64x64x64, .f32⟩ : BufTy).Contents (Elt Ideal)) (b : Fin 2) (d h w : Fin 64) :
    val_main_v165 (F := Ideal) x0 x1 (ix5 b (⟨23, by decide⟩ : Fin 27) d h w)
      = corr x0 (val_main_v0 (F := Ideal) x1) (ix5 b (⟨23, by decide⟩ : Fin 27) d h w) := by
  unfold val_main_v165
  corr_right 23 7 val_main_v144 2 1 2

theorem entry_24 (x0 x1 : (⟨S2x64x64x64x64, .f32⟩ : BufTy).Contents (Elt Ideal)) (b : Fin 2) (d h w : Fin 64) :
    val_main_v165 (F := Ideal) x0 x1 (ix5 b (⟨24, by decide⟩ : Fin 27) d h w)
      = corr x0 (val_main_v0 (F := Ideal) x1) (ix5 b (⟨24, by decide⟩ : Fin 27) d h w) := by
  unfold val_main_v165
  corr_right 24 8 val_main_v150 2 2 0

theorem entry_25 (x0 x1 : (⟨S2x64x64x64x64, .f32⟩ : BufTy).Contents (Elt Ideal)) (b : Fin 2) (d h w : Fin 64) :
    val_main_v165 (F := Ideal) x0 x1 (ix5 b (⟨25, by decide⟩ : Fin 27) d h w)
      = corr x0 (val_main_v0 (F := Ideal) x1) (ix5 b (⟨25, by decide⟩ : Fin 27) d h w) := by
  unfold val_main_v165
  corr_right 25 9 val_main_v156 2 2 1

theorem entry_26 (x0 x1 : (⟨S2x64x64x64x64, .f32⟩ : BufTy).Contents (Elt Ideal)) (b : Fin 2) (d h w : Fin 64) :
    val_main_v165 (F := Ideal) x0 x1 (ix5 b (⟨26, by decide⟩ : Fin 27) d h w)
      = corr x0 (val_main_v0 (F := Ideal) x1) (ix5 b (⟨26, by decide⟩ : Fin 27) d h w) := by
  unfold val_main_v165
  corr_right 26 10 val_main_v162 2 2 2

/-- THE REFERENCE IS THE CORRELATION VOLUME of the first argument and the padded second. -/
theorem ref_eq (x0 x1 : (⟨S2x64x64x64x64, .f32⟩ : BufTy).Contents (Elt Ideal)) :
    val_main_v165 (F := Ideal) x0 x1 = corr x0 (val_main_v0 (F := Ideal) x1) := by
  funext j
  obtain ⟨b, o, d, h, w, rfl⟩ : ∃ (b : Fin 2) (o : Fin 27) (d h w : Fin 64), j = ix5 b o d h w :=
    ⟨j 0, j 1, j 2, j 3, j 4, eq_ix5 j⟩
  match o with
  | ⟨0, _⟩ => exact entry_0 x0 x1 b d h w
  | ⟨1, _⟩ => exact entry_1 x0 x1 b d h w
  | ⟨2, _⟩ => exact entry_2 x0 x1 b d h w
  | ⟨3, _⟩ => exact entry_3 x0 x1 b d h w
  | ⟨4, _⟩ => exact entry_4 x0 x1 b d h w
  | ⟨5, _⟩ => exact entry_5 x0 x1 b d h w
  | ⟨6, _⟩ => exact entry_6 x0 x1 b d h w
  | ⟨7, _⟩ => exact entry_7 x0 x1 b d h w
  | ⟨8, _⟩ => exact entry_8 x0 x1 b d h w
  | ⟨9, _⟩ => exact entry_9 x0 x1 b d h w
  | ⟨10, _⟩ => exact entry_10 x0 x1 b d h w
  | ⟨11, _⟩ => exact entry_11 x0 x1 b d h w
  | ⟨12, _⟩ => exact entry_12 x0 x1 b d h w
  | ⟨13, _⟩ => exact entry_13 x0 x1 b d h w
  | ⟨14, _⟩ => exact entry_14 x0 x1 b d h w
  | ⟨15, _⟩ => exact entry_15 x0 x1 b d h w
  | ⟨16, _⟩ => exact entry_16 x0 x1 b d h w
  | ⟨17, _⟩ => exact entry_17 x0 x1 b d h w
  | ⟨18, _⟩ => exact entry_18 x0 x1 b d h w
  | ⟨19, _⟩ => exact entry_19 x0 x1 b d h w
  | ⟨20, _⟩ => exact entry_20 x0 x1 b d h w
  | ⟨21, _⟩ => exact entry_21 x0 x1 b d h w
  | ⟨22, _⟩ => exact entry_22 x0 x1 b d h w
  | ⟨23, _⟩ => exact entry_23 x0 x1 b d h w
  | ⟨24, _⟩ => exact entry_24 x0 x1 b d h w
  | ⟨25, _⟩ => exact entry_25 x0 x1 b d h w
  | ⟨26, _⟩ => exact entry_26 x0 x1 b d h w
  | ⟨n + 27, hn⟩ => exact absurd hn (by omega)

end Cert.ReferenceIdeal.CorrRef

end
-- ==== Proof.lean ====
/-
  A correlation (cost-volume) kernel against its jnp reference: for each of two batches and each of the 27 displacements
  `(dx, dy, dz) ∈ {0, 1, 2}³`, the mean over 64 channels of `x₁ · shift(x₂ᵖ)` over a `64³` volume, `x₂ᵖ` being the second argument
  padded by one zero on each side of its three spatial axes (both programs pad it with the same host operation).

  The kernel runs over a grid of (batch, channel): a batch's first channel zero-fills the `[27, 64, 64, 64]` accumulator and every
  channel adds, to each displacement's slice, its product scaled by `2⁻⁶`; the accumulator is written back after the last
  channel. The reference sums the 64 products and divides by `64`, displacement by displacement, and joins the 27 volumes.

  Over the extended reals the two agree entry by entry: `2⁻⁶` and `64` are exact, and multiplying by the non-negative finite
  `1/64` distributes over any sum of extended reals, so the precondition (finite inputs) is not used.
    – Proof/CorrSpec.lean: the correlation volume `corr` and that law;
    – Proof/CorrStep.lean, CorrBody.lean, CorrKernel.lean: the kernel's result array is `corr`;
    – Proof/CorrMean.lean, CorrReference.lean: the reference's result is `corr`;
    – the three programs run and keep their arguments (the frames); the idealization rewrote nothing (`preserves` is `True`).
-/
import proofs.«137139_j36077725286488_2_alg».proof.Defs
import proofs.«137139_j36077725286488_2_alg».proof.Proof.Gen.Kernel
import proofs.«137139_j36077725286488_2_alg».proof.Proof.Gen.Kernel.Skeleton
import proofs.«137139_j36077725286488_2_alg».proof.Proof.Gen.Kernel.Launch
import proofs.«137139_j36077725286488_2_alg».proof.Proof.Gen.Kernel.Points
import proofs.«137139_j36077725286488_2_alg».proof.Proof.Gen.Kernel.Frame
import proofs.«137139_j36077725286488_2_alg».proof.Proof.Gen.KernelIdeal
import proofs.«137139_j36077725286488_2_alg».proof.Proof.Gen.KernelIdeal.Skeleton
import proofs.«137139_j36077725286488_2_alg».proof.Proof.Gen.KernelIdeal.Launch
import proofs.«137139_j36077725286488_2_alg».proof.Proof.Gen.KernelIdeal.Points
import proofs.«137139_j36077725286488_2_alg».proof.Proof.Gen.KernelIdeal.Frame
import proofs.«137139_j36077725286488_2_alg».proof.Proof.Gen.KernelIdeal.Value
import proofs.«137139_j36077725286488_2_alg».proof.Proof.Gen.ReferenceIdeal
import proofs.«137139_j36077725286488_2_alg».proof.Proof.Gen.Pre_finite_inputs
import proofs.«137139_j36077725286488_2_alg».proof.Proof.ReferenceRun
import proofs.«137139_j36077725286488_2_alg».proof.Proof.ReferenceRead
import proofs.«137139_j36077725286488_2_alg».proof.Proof.CorrSpec
import proofs.«137139_j36077725286488_2_alg».proof.Proof.CorrKernel
import proofs.«137139_j36077725286488_2_alg».proof.Proof.CorrReference
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the correlation volume of the first argument and the padded second: the kernel's result array
    (Proof/CorrKernel.lean) and the reference's (Proof/CorrReference.lean), from arguments that agree. -/
theorem algebraic : Cert.algebraic_KernelIdeal_ReferenceIdeal := by
  intro m ρ m' ρ' _ hagree
  refine ⟨fun c => Cert.KernelIdeal.CorrValue.value m c, Cert.KernelIdeal.CorrValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v165_eq, Cert.ReferenceIdeal.CorrRef.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
